-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v109)) (v1 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_v102) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1200000x64 : Shape := ⟨2, ![1200000, 64]⟩
abbrev S1200000 : Shape := ⟨1, ![1200000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1200000x64 : S_.BroadcastsInDim S1200000x64 (![] : Fin 0 → Fin S1200000x64.rank)
  reducesTo_S1200000x64_S_d0_1 : S1200000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part2 {F : FTy → Type} [FloatOps F] (main_arg10 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg7 : FVec F S4x64x64 .f32) (main_arg8 : FVec F S4x64 .f32) (main_arg9 : FVec F S128x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4x64x64 .f32 := Host.absf main_arg7
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S4x64 .f32 := Host.absf main_arg8
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S128x64 .f32 := Host.absf main_arg9
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg10 main_v33

def fn {F : FTy → Type} [FloatOps F] (main_arg0 : FVec F S50000x64 .f32) (main_arg1 : FVec F S1200000x64 .f32) (main_arg2 : IVec S1200000 32) (main_arg3 : IVec S1200000 32) (main_arg4 : IVec S1200000 32) (main_arg5 : FVec F S128x64 .f32) (main_arg6 : FVec F S64 .f32) (main_arg7 : FVec F S4x64x64 .f32) (main_arg8 : FVec F S4x64 .f32) (main_arg9 : FVec F S128x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1200000x64 .f32 := Host.absf main_arg1
  let main_cst_0 : FVec F S_ .f32 := constant S_ .f32 0x7F800000#32
  let main_v5 : FVec F S1200000x64 .f32 := broadcastInDim S1200000x64 ![] bcast_S_S1200000x64 main_cst_0
  let main_v6 : IVec S1200000x64 1 := cmpf .olt main_v4 main_v5
  let main_c_1 : IVec S_ 1 := constantI S_ 1 1#1
  let main_v7 : IVec S_ 1 := (fun x v => Host.reduce IntOp.andi x v reducesTo_S1200000x64_S_d0_1 h_S_) main_v6 main_c_1
  let main_v8 : IVec S_ 1 := andi main_v3 main_v7
  let main_v9 : FVec F S128x64 .f32 := Host.absf main_arg5
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_v13 main_v16
-- ==== Kernel.lean ====
abbrev S50000x64 : Shape := ⟨2, ![50000, 64]⟩
abbrev S1200000x64 : Shape := ⟨2, ![1200000, 64]⟩
abbrev S1200000 : Shape := ⟨1, ![1200000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S1x64 : Shape := ⟨2, ![1, 64]⟩
abbrev S_ : Shape := ⟨0, ![]⟩
abbrev S1200000x1 : Shape := ⟨2, ![1200000, 1]⟩
abbrev S4800x64 : Shape := ⟨2, ![4800, 64]⟩
abbrev S1x64x64 : Shape := ⟨3, ![1, 64, 64]⟩
abbrev S5000x64 : Shape := ⟨2, ![5000, 64]⟩

abbrev nBuf : Space → Nat
  | .hbm => 144
  | .vmem => 58
  | .smem => 0
  | _ => 0

abbrev hbmTy0_0 (i : Nat) : BufTy := match i % 128 with
  | 0 => ⟨S50000x64, .f32⟩
  | 1 => ⟨S1200000x64, .f32⟩
  | 2 => ⟨S1200000, .i32⟩
  | 3 => ⟨S1200000, .i32⟩
  | 4 => ⟨S1200000, .i32⟩
  | 5 => ⟨S128x64, .f32⟩
  | 6 => ⟨S64, .f32⟩
  | 7 => ⟨S4x64x64, .f32⟩
  | 8 => ⟨S4x64, .f32⟩
  | 9 => ⟨S128x64, .f32⟩
  | 10 => ⟨S64, .f32⟩
  | 11 => ⟨S64x64, .f32⟩
  | 12 => ⟨S64x64, .f32⟩
  | 13 => ⟨S1x64, .f32⟩
  | 14 => ⟨S_, .i32⟩
  | 15 => ⟨S1200000, .i32⟩
  | 16 => ⟨S1200000, .i1⟩
  | 17 => ⟨S_, .i32⟩
  | 18 => ⟨S1200000, .i32⟩
  | 19 => ⟨S1200000, .i32⟩
  | 20 => ⟨S1200000, .i32⟩
  | 21 => ⟨S1200000x1, .i32⟩
  | 22 => ⟨S1200000x64, .f32⟩
  | 23 => ⟨S1200000x64, .f32⟩
  | 24 => ⟨S_, .f32⟩
  | 25 => ⟨S50000x64, .f32⟩
  | 26 => ⟨S1200000x1, .i32⟩
  | 27 => ⟨S50000x64, .f32⟩
  | 28 => ⟨S_, .i32⟩
  | 29 => ⟨S1200000, .i32⟩
  | 30 => ⟨S1200000, .i1⟩
  | 31 => ⟨S_, .i32⟩
  | 32 => ⟨S1200000, .i32⟩
  | 33 => ⟨S1200000, .i32⟩
  | 34 => ⟨S1200000, .i32⟩
  | 35 => ⟨S1200000x1, .i32⟩
  | 36 => ⟨S1200000x64, .f32⟩
  | 37 => ⟨S_, .i32⟩
  | 38 => ⟨S1200000, .i32⟩
  | 39 => ⟨S1200000, .i1⟩
  | 40 => ⟨S_, .i32⟩
  | 41 => ⟨S1200000, .i32⟩
  | 42 => ⟨S1200000, .i32⟩
  | 43 => ⟨S1200000, .i32⟩
  | 44 => ⟨S1200000x1, .i32⟩
  | 45 => ⟨S1200000x64, .f32⟩
  | 46 => ⟨S1x64x64, .f32⟩
  | 47 => ⟨S64x64, .f32⟩
  | 48 => ⟨S1x64, .f32⟩
  | 49 => ⟨S64, .f32⟩
  | 50 => ⟨S1x64, .f32⟩
  | 51 => ⟨S1200000x64, .f32⟩
  | 52 => ⟨S_, .f32⟩
  | 53 => ⟨S50000x64, .f32⟩
  | 54 => ⟨S1200000x1, .i32⟩
  | 55 => ⟨S50000x64, .f32⟩
  | 56 => ⟨S_, .i32⟩
  | 57 => ⟨S1200000, .i32⟩
  | 58 => ⟨S1200000, .i1⟩
  | 59 => ⟨S_, .i32⟩
  | 60 => ⟨S1200000, .i32⟩
  | 61 => ⟨S1200000, .i32⟩
  | 62 => ⟨S1200000, .i32⟩
  | 63 => ⟨S1200000x1, .i32⟩
  | 64 => ⟨S1200000x64, .f32⟩
  | 65 => ⟨S_, .i32⟩
  | 66 => ⟨S1200000, .i32⟩
  | 67 => ⟨S1200000, .i1⟩
  | 68 => ⟨S_, .i32⟩
  | 69 => ⟨S1200000, .i32⟩
  | 70 => ⟨S1200000, .i32⟩
  | 71 => ⟨S1200000, .i32⟩
  | 72 => ⟨S1200000x1, .i32⟩
  | 73 => ⟨S1200000x64, .f32⟩
  | 74 => ⟨S1x64x64, .f32⟩
  | 75 => ⟨S64x64, .f32⟩
  | 76 => ⟨S1x64, .f32⟩
  | 77 => ⟨S64, .f32⟩
  | 78 => ⟨S1x64, .f32⟩
  | 79 => ⟨S1200000x64, .f32⟩
  | 80 => ⟨S_, .f32⟩
  | 81 => ⟨S50000x64, .f32⟩
  | 82 => ⟨S1200000x1, .i32⟩
  | 83 => ⟨S50000x64, .f32⟩
  | 84 => ⟨S_, .i32⟩
  | 85 => ⟨S1200000, .i32⟩
  | 86 => ⟨S1200000, .i1⟩
  | 87 => ⟨S_, .i32⟩
  | 88 => ⟨S1200000, .i32⟩
  | 89 => ⟨S1200000, .i32⟩
  | 90 => ⟨S1200000, .i32⟩
  | 91 => ⟨S1200000x1, .i32⟩
  | 92 => ⟨S1200000x64, .f32⟩
  | 93 => ⟨S_, .i32⟩
  | 94 => ⟨S1200000, .i32⟩
  | 95 => ⟨S1200000, .i1⟩
  | 96 => ⟨S_, .i32⟩
  | 97 => ⟨S1200000, .i32⟩
  | 98 => ⟨S1200000, .i32⟩
  | 99 => ⟨S1200000, .i32⟩
  | 100 => ⟨S1200000x1, .i32⟩
  | 101 => ⟨S1200000x64, .f32⟩
  | 102 => ⟨S1x64x64, .f32⟩
  | 103 => ⟨S64x64, .f32⟩
  | 104 => ⟨S1x64, .f32⟩
  | 105 => ⟨S64, .f32⟩
  | 106 => ⟨S1x64, .f32⟩
  | 107 => ⟨S1200000x64, .f32⟩
  | 108 => ⟨S_, .f32⟩
  | 109 => ⟨S50000x64, .f32⟩
  | 110 => ⟨S1200000x1, .i32⟩
  | 111 => ⟨S50000x64, .f32⟩
  | 112 => ⟨S_, .i32⟩
  | 113 => ⟨S1200000, .i32⟩
  | 114 => ⟨S1200000, .i1⟩
  | 115 => ⟨S_, .i32⟩
  | 116 => ⟨S1200000, .i32⟩
  | 117 => ⟨S1200000, .i32⟩
  | 118 => ⟨S1200000, .i32⟩
  | 119 => ⟨S1200000x1, .i32⟩
  | 120 => ⟨S1200000x64, .f32⟩
  | 121 => ⟨S_, .i32⟩
  | 122 => ⟨S1200000, .i32⟩
  | 123 => ⟨S1200000, .i1⟩
  | 124 => ⟨S_, .i32⟩
  | 125 => ⟨S1200000, .i32⟩
  | 126 => ⟨S1200000, .i32⟩
  | 127 => ⟨S1200000, .i32⟩
  | _ => ⟨S50000x64, .f32⟩

abbrev hbmTy0_1 (i : Nat) : BufTy := match i % 128 with
  | 0 => ⟨S1200000x1, .i32⟩
  | 1 => ⟨S1200000x64, .f32⟩
  | 2 => ⟨S1x64x64, .f32⟩
  | 3 => ⟨S64x64, .f32⟩
  | 4 => ⟨S1x64, .f32⟩
  | 5 => ⟨S64, .f32⟩
  | 6 => ⟨S1x64, .f32⟩
  | 7 => ⟨S1200000x64, .f32⟩
  | 8 => ⟨S_, .f32⟩
  | 9 => ⟨S50000x64, .f32⟩
  | 10 => ⟨S1200000x1, .i32⟩
  | 11 => ⟨S50000x64, .f32⟩
  | 12 => ⟨S64x64, .f32⟩
  | 13 => ⟨S64x64, .f32⟩
  | 14 => ⟨S1x64, .f32⟩
  | 15 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4800x64, .f32⟩
  | .local _ .vmem, ⟨1, _⟩ => ⟨S4800x64, .f32⟩
  | .local _ .vmem, ⟨2, _⟩ => ⟨S4800x64, .f32⟩
  | .local _ .vmem, ⟨3, _⟩ => ⟨S4800x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S4800x64, .f32⟩
  | .local _ .vmem, ⟨8, _⟩ => ⟨S4800x64, .f32⟩
  | .local _ .vmem, ⟨9, _⟩ => ⟨S4800x64, .f32⟩
  | .local _ .vmem, ⟨10, _⟩ => ⟨S4800x64, .f32⟩
  | .local _ .vmem, ⟨11, _⟩ => ⟨S4800x64, .f32⟩
  | .local _ .vmem, ⟨12, _⟩ => ⟨S4800x64, .f32⟩
  | .local _ .vmem, ⟨13, _⟩ => ⟨S4800x64, .f32⟩
  | .local _ .vmem, ⟨14, _⟩ => ⟨S4800x64, .f32⟩
  | .local _ .vmem, ⟨15, _⟩ => ⟨S64x64, .f32⟩
  | .local _ .vmem, ⟨16, _⟩ => ⟨S1x64, .f32⟩
  | .local _ .vmem, ⟨17, _⟩ => ⟨S4800x64, .f32⟩
  | .local _ .vmem, ⟨18, _⟩ => ⟨S4800x64, .f32⟩
  | .local _ .vmem, ⟨19, _⟩ => ⟨S4800x64, .f32⟩
  | .local _ .vmem, ⟨20, _⟩ => ⟨S4800x64, .f32⟩
  | .local _ .vmem, ⟨21, _⟩ => ⟨S4800x64, .f32⟩
  | .local _ .vmem, ⟨22, _⟩ => ⟨S4800x64, .f32⟩
  | .local _ .vmem, ⟨23, _⟩ => ⟨S4800x64, .f32⟩
  | .local _ .vmem, ⟨24, _⟩ => ⟨S4800x64, .f32⟩
  | .local _ .vmem, ⟨25, _⟩ => ⟨S64x64, .f32⟩
  | .local _ .vmem, ⟨26, _⟩ => ⟨S1x64, .f32⟩
  | .local _ .vmem, ⟨27, _⟩ => ⟨S4800x64, .f32⟩
  | .local _ .vmem, ⟨28, _⟩ => ⟨S4800x64, .f32⟩
  | .local _ .vmem, ⟨29, _⟩ => ⟨S4800x64, .f32⟩
  | .local _ .vmem, ⟨30, _⟩ => ⟨S4800x64, .f32⟩
  | .local _ .vmem, ⟨31, _⟩ => ⟨S4800x64, .f32⟩
  | .local _ .vmem, ⟨32, _⟩ => ⟨S4800x64, .f32⟩
  | .local _ .vmem, ⟨33, _⟩ => ⟨S4800x64, .f32⟩
  | .local _ .vmem, ⟨34, _⟩ => ⟨S4800x64, .f32⟩
  | .local _ .vmem, ⟨35, _⟩ => ⟨S64x64, .f32⟩
  | .local _ .vmem, ⟨36, _⟩ => ⟨S1x64, .f32⟩
  | .local _ .vmem, ⟨37, _⟩ => ⟨S4800x64, .f32⟩
  | .local _ .vmem, ⟨38, _⟩ => ⟨S4800x64, .f32⟩
  | .local _ .vmem, ⟨39, _⟩ => ⟨S4800x64, .f32⟩
  | .local _ .vmem, ⟨40, _⟩ => ⟨S4800x64, .f32⟩
  | .local _ .vmem, ⟨41, _⟩ => ⟨S4800x64, .f32⟩
  | .local _ .vmem, ⟨42, _⟩ => ⟨S4800x64, .f32⟩
  | .local _ .vmem, ⟨43, _⟩ => ⟨S4800x64, .f32⟩
  | .local _ .vmem, ⟨44, _⟩ => ⟨S4800x64, .f32⟩
  | .local _ .vmem, ⟨45, _⟩ => ⟨S64x64, .f32⟩
  | .local _ .vmem, ⟨46, _⟩ => ⟨S1x64, .f32⟩
  | .local _ .vmem, ⟨47, _⟩ => ⟨S4800x64, .f32⟩
  | .local _ .vmem, ⟨48, _⟩ => ⟨S4800x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S64x64, .f32⟩
  | .local _ .vmem, ⟨54, _⟩ => ⟨S64x64, .f32⟩
  | .local _ .vmem, ⟨55, _⟩ => ⟨S1x64, .f32⟩
  | .local _ .vmem, ⟨56, _⟩ => ⟨S5000x64, .f32⟩
  | .local _ .vmem, ⟨57, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_16 : Ref sig .tc := ⟨.hbm, 112, rfl⟩
abbrev main_v83 : Ref sig .tc := ⟨.hbm, 113, rfl⟩
abbrev main_v84 : Ref sig .tc := ⟨.hbm, 114, rfl⟩
abbrev main_c_17 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_18 : Ref sig .tc := ⟨.hbm, 121, rfl⟩
abbrev main_v90 : Ref sig .tc := ⟨.hbm, 122, rfl⟩
abbrev main_v91 : Ref sig .tc := ⟨.hbm, 123, rfl⟩
abbrev main_c_19 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_20 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg5_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg5_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem5_0 : DmaSem sig := 37
abbrev cc3_sem5_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem4_0 : DmaSem sig := 46
abbrev cc4_sem5_0 : DmaSem sig := 47
abbrev cc4_sem5_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem5_1 : DmaSem sig := 57

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4800x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4800x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4800x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4800x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4800x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4800x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4800x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4800x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4800x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4800x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4800x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4800x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4800x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4800x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4800x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4800x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4800x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4800x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S128x64_S64x64_0_0 : S128x64.Slices ![0, 0] S64x64
  slices_S128x64_S64x64_64_0 : S128x64.Slices ![64, 0] S64x64
  shapeCasts_S64_S1x64 : S64.ShapeCasts S1x64
  bcast_S_S1200000 : S_.BroadcastsInDim S1200000 (![] : Fin 0 → Fin S1200000.rank)
  bcast_S1200000_S1200000x1_0 : S1200000.BroadcastsInDim S1200000x1 (![0] : Fin 1 → Fin S1200000x1.rank)
  inb_S4800x64_S4800x64_0_0 : ∀ a, (![0, 0] : Fin 2 → Nat) a + S4800x64.size a ≤ S4800x64.size a
  h_S4800x64 : 0 < S4800x64.numel
  shapeCasts_S4800x64_S4800x64 : S4800x64.ShapeCasts S4800x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4800x64 : S1x64.Broadcasts S4800x64
  bcast_S_S50000x64 : S_.BroadcastsInDim S50000x64 (![] : Fin 0 → Fin S50000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  gather_S50000x64_S1200000x1_S1200000x64_1_0_n_n_0_1_164_wf : GatherDims.WF S50000x64 S1200000x1 S1200000x64 [1] [0] [] [0] [] 1 ![1, 64]
  dot_S4800x64_S64x64_S4800x64_1_0_0_1_n_n_wf : DotDims.WF S4800x64 S64x64 S4800x64 [1] [0] [0] [1] [] []
  scatter_S50000x64_S1200000x1_S1200000x64_1_0_0_1_wf : ScatterDims.WF S50000x64 S1200000x1 S1200000x64 [1] [0] [0] 1
  gather_S1200000x64_S1200000x1_S1200000x64_1_0_n_n_0_1_164_wf : GatherDims.WF S1200000x64 S1200000x1 S1200000x64 [1] [0] [] [0] [] 1 ![1, 64]
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4800x64.size a ≤ S1200000x64.size a
  hwx0_0 : ∀ i : grid0.Coords, EltTy.bits .f32 = 32 ∨ (Rect.block (s := S1200000x64) S4800x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4800x64.size a ≤ S1200000x64.size a
  hwx0_1 : ∀ i : grid0.Coords, EltTy.bits .f32 = 32 ∨ (Rect.block (s := S1200000x64) S4800x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4800x64.size a ≤ S1200000x64.size a
  hwx0_5 : ∀ i : grid0.Coords, EltTy.bits .f32 = 32 ∨ (Rect.block (s := S1200000x64) S4800x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4800x64.size a ≤ S1200000x64.size a
  hwx1_0 : ∀ i : grid1.Coords, EltTy.bits .f32 = 32 ∨ (Rect.block (s := S1200000x64) S4800x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4800x64.size a ≤ S1200000x64.size a
  hwx1_1 : ∀ i : grid1.Coords, EltTy.bits .f32 = 32 ∨ (Rect.block (s := S1200000x64) S4800x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4800x64.size a ≤ S1200000x64.size a
  hwx1_2 : ∀ i : grid1.Coords, EltTy.bits .f32 = 32 ∨ (Rect.block (s := S1200000x64) S4800x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4800x64.size a ≤ S1200000x64.size a
  hwx1_5 : ∀ i : grid1.Coords, EltTy.bits .f32 = 32 ∨ (Rect.block (s := S1200000x64) S4800x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4800x64.size a ≤ S1200000x64.size a
  hwx2_0 : ∀ i : grid2.Coords, EltTy.bits .f32 = 32 ∨ (Rect.block (s := S1200000x64) S4800x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4800x64.size a ≤ S1200000x64.size a
  hwx2_1 : ∀ i : grid2.Coords, EltTy.bits .f32 = 32 ∨ (Rect.block (s := S1200000x64) S4800x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4800x64.size a ≤ S1200000x64.size a
  hwx2_2 : ∀ i : grid2.Coords, EltTy.bits .f32 = 32 ∨ (Rect.block (s := S1200000x64) S4800x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4800x64.size a ≤ S1200000x64.size a
  hwx2_5 : ∀ i : grid2.Coords, EltTy.bits .f32 = 32 ∨ (Rect.block (s := S1200000x64) S4800x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4800x64.size a ≤ S1200000x64.size a
  hwx3_0 : ∀ i : grid3.Coords, EltTy.bits .f32 = 32 ∨ (Rect.block (s := S1200000x64) S4800x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4800x64.size a ≤ S1200000x64.size a
  hwx3_1 : ∀ i : grid3.Coords, EltTy.bits .f32 = 32 ∨ (Rect.block (s := S1200000x64) S4800x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4800x64.size a ≤ S1200000x64.size a
  hwx3_2 : ∀ i : grid3.Coords, EltTy.bits .f32 = 32 ∨ (Rect.block (s := S1200000x64) S4800x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4800x64.size a ≤ S1200000x64.size a
  hwx3_5 : ∀ i : grid3.Coords, EltTy.bits .f32 = 32 ∨ (Rect.block (s := S1200000x64) S4800x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4800x64.size a ≤ S1200000x64.size a
  hwx4_0 : ∀ i : grid4.Coords, EltTy.bits .f32 = 32 ∨ (Rect.block (s := S1200000x64) S4800x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4800x64.size a ≤ S1200000x64.size a
  hwx4_1 : ∀ i : grid4.Coords, EltTy.bits .f32 = 32 ∨ (Rect.block (s := S1200000x64) S4800x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4800x64.size a ≤ S1200000x64.size a
  hwx4_2 : ∀ i : grid4.Coords, EltTy.bits .f32 = 32 ∨ (Rect.block (s := S1200000x64) S4800x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4800x64.size a ≤ S1200000x64.size a
  hwx4_5 : ∀ i : grid4.Coords, EltTy.bits .f32 = 32 ∨ (Rect.block (s := S1200000x64) S4800x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)

variable [Facts₀]

def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def dot_S4800x64_S64x64_S4800x64_1_0_0_1_n_n : DotDims S4800x64 S64x64 S4800x64 where
  lhsContracting := [1]
  rhsContracting := [0]
  lhsNonContracting := [0]
  rhsNonContracting := [1]
  lhsBatch := []
  rhsBatch := []
  wf := dot_S4800x64_S64x64_S4800x64_1_0_0_1_n_n_wf
def scatter_S50000x64_S1200000x1_S1200000x64_1_0_0_1 : ScatterDims S50000x64 S1200000x1 S1200000x64 where
  updateWindowDims := [1]
  insertedWindowDims := [0]
  scatterDimsToOperandDims := [0]
  indexVectorDim := 1
  wf := scatter_S50000x64_S1200000x1_S1200000x64_1_0_0_1_wf
def gather_S1200000x64_S1200000x1_S1200000x64_1_0_n_n_0_1_164 : GatherDims S1200000x64 S1200000x1 S1200000x64 where
  offsetDims := [1]
  collapsedSliceDims := [0]
  operandBatchingDims := []
  startIndicesBatchingDims := []
  startIndexMap := [0]
  indexVectorDim := 1
  sliceSizes := ![1, 64]
  wf := gather_S1200000x64_S1200000x1_S1200000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v9) S4800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4800x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S4800x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S4800x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4800x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4800x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S4800x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S4800x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S4800x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S4800x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S4800x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S4800x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S4800x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S4800x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S4800x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v89) S4800x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v96) S4800x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v10) S4800x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v98) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v101) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v102) S4800x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_arg0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v105) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v106) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v107) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v108) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v109) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x64 : Shape := ⟨2, ![50000, 64]⟩
abbrev S1200000x64 : Shape := ⟨2, ![1200000, 64]⟩
abbrev S1200000 : Shape := ⟨1, ![1200000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S_ : Shape := ⟨0, ![]⟩
abbrev S1200000x1 : Shape := ⟨2, ![1200000, 1]⟩
abbrev S1200000x128 : Shape := ⟨2, ![1200000, 128]⟩
abbrev S1x64 : Shape := ⟨2, ![1, 64]⟩
abbrev S1x64x64 : Shape := ⟨3, ![1, 64, 64]⟩
abbrev S64x64 : Shape := ⟨2, ![64, 64]⟩
abbrev S50000x128 : Shape := ⟨2, ![50000, 128]⟩

abbrev nBuf : Space → Nat
  | .hbm => 180
  | .vmem => 0
  | .smem => 0
  | _ => 0

abbrev hbmTy0_0 (i : Nat) : BufTy := match i % 128 with
  | 0 => ⟨S50000x64, .f32⟩
  | 1 => ⟨S1200000x64, .f32⟩
  | 2 => ⟨S1200000, .i32⟩
  | 3 => ⟨S1200000, .i32⟩
  | 4 => ⟨S1200000, .i32⟩
  | 5 => ⟨S128x64, .f32⟩
  | 6 => ⟨S64, .f32⟩
  | 7 => ⟨S4x64x64, .f32⟩
  | 8 => ⟨S4x64, .f32⟩
  | 9 => ⟨S128x64, .f32⟩
  | 10 => ⟨S64, .f32⟩
  | 11 => ⟨S_, .i32⟩
  | 12 => ⟨S1200000, .i32⟩
  | 13 => ⟨S1200000, .i1⟩
  | 14 => ⟨S_, .i32⟩
  | 15 => ⟨S1200000, .i32⟩
  | 16 => ⟨S1200000, .i32⟩
  | 17 => ⟨S1200000, .i32⟩
  | 18 => ⟨S1200000x1, .i32⟩
  | 19 => ⟨S1200000x64, .f32⟩
  | 20 => ⟨S1200000x128, .f32⟩
  | 21 => ⟨S1200000x64, .f32⟩
  | 22 => ⟨S1x64, .f32⟩
  | 23 => ⟨S1200000x64, .f32⟩
  | 24 => ⟨S1200000x64, .f32⟩
  | 25 => ⟨S_, .f32⟩
  | 26 => ⟨S1200000x64, .f32⟩
  | 27 => ⟨S1200000x64, .f32⟩
  | 28 => ⟨S_, .f32⟩
  | 29 => ⟨S50000x64, .f32⟩
  | 30 => ⟨S1200000x1, .i32⟩
  | 31 => ⟨S50000x64, .f32⟩
  | 32 => ⟨S_, .i32⟩
  | 33 => ⟨S1200000, .i32⟩
  | 34 => ⟨S1200000, .i1⟩
  | 35 => ⟨S_, .i32⟩
  | 36 => ⟨S1200000, .i32⟩
  | 37 => ⟨S1200000, .i32⟩
  | 38 => ⟨S1200000, .i32⟩
  | 39 => ⟨S1200000x1, .i32⟩
  | 40 => ⟨S1200000x64, .f32⟩
  | 41 => ⟨S_, .i32⟩
  | 42 => ⟨S1200000, .i32⟩
  | 43 => ⟨S1200000, .i1⟩
  | 44 => ⟨S_, .i32⟩
  | 45 => ⟨S1200000, .i32⟩
  | 46 => ⟨S1200000, .i32⟩
  | 47 => ⟨S1200000, .i32⟩
  | 48 => ⟨S1200000x1, .i32⟩
  | 49 => ⟨S1200000x64, .f32⟩
  | 50 => ⟨S1200000x64, .f32⟩
  | 51 => ⟨S1x64x64, .f32⟩
  | 52 => ⟨S64x64, .f32⟩
  | 53 => ⟨S1200000x64, .f32⟩
  | 54 => ⟨S1200000x64, .f32⟩
  | 55 => ⟨S1x64, .f32⟩
  | 56 => ⟨S64, .f32⟩
  | 57 => ⟨S1x64, .f32⟩
  | 58 => ⟨S1200000x64, .f32⟩
  | 59 => ⟨S1200000x64, .f32⟩
  | 60 => ⟨S_, .f32⟩
  | 61 => ⟨S1200000x64, .f32⟩
  | 62 => ⟨S1200000x64, .f32⟩
  | 63 => ⟨S_, .f32⟩
  | 64 => ⟨S50000x64, .f32⟩
  | 65 => ⟨S1200000x1, .i32⟩
  | 66 => ⟨S50000x64, .f32⟩
  | 67 => ⟨S_, .i32⟩
  | 68 => ⟨S1200000, .i32⟩
  | 69 => ⟨S1200000, .i1⟩
  | 70 => ⟨S_, .i32⟩
  | 71 => ⟨S1200000, .i32⟩
  | 72 => ⟨S1200000, .i32⟩
  | 73 => ⟨S1200000, .i32⟩
  | 74 => ⟨S1200000x1, .i32⟩
  | 75 => ⟨S1200000x64, .f32⟩
  | 76 => ⟨S_, .i32⟩
  | 77 => ⟨S1200000, .i32⟩
  | 78 => ⟨S1200000, .i1⟩
  | 79 => ⟨S_, .i32⟩
  | 80 => ⟨S1200000, .i32⟩
  | 81 => ⟨S1200000, .i32⟩
  | 82 => ⟨S1200000, .i32⟩
  | 83 => ⟨S1200000x1, .i32⟩
  | 84 => ⟨S1200000x64, .f32⟩
  | 85 => ⟨S1200000x64, .f32⟩
  | 86 => ⟨S1x64x64, .f32⟩
  | 87 => ⟨S64x64, .f32⟩
  | 88 => ⟨S1200000x64, .f32⟩
  | 89 => ⟨S1200000x64, .f32⟩
  | 90 => ⟨S1x64, .f32⟩
  | 91 => ⟨S64, .f32⟩
  | 92 => ⟨S1x64, .f32⟩
  | 93 => ⟨S1200000x64, .f32⟩
  | 94 => ⟨S1200000x64, .f32⟩
  | 95 => ⟨S_, .f32⟩
  | 96 => ⟨S1200000x64, .f32⟩
  | 97 => ⟨S1200000x64, .f32⟩
  | 98 => ⟨S_, .f32⟩
  | 99 => ⟨S50000x64, .f32⟩
  | 100 => ⟨S1200000x1, .i32⟩
  | 101 => ⟨S50000x64, .f32⟩
  | 102 => ⟨S_, .i32⟩
  | 103 => ⟨S1200000, .i32⟩
  | 104 => ⟨S1200000, .i1⟩
  | 105 => ⟨S_, .i32⟩
  | 106 => ⟨S1200000, .i32⟩
  | 107 => ⟨S1200000, .i32⟩
  | 108 => ⟨S1200000, .i32⟩
  | 109 => ⟨S1200000x1, .i32⟩
  | 110 => ⟨S1200000x64, .f32⟩
  | 111 => ⟨S_, .i32⟩
  | 112 => ⟨S1200000, .i32⟩
  | 113 => ⟨S1200000, .i1⟩
  | 114 => ⟨S_, .i32⟩
  | 115 => ⟨S1200000, .i32⟩
  | 116 => ⟨S1200000, .i32⟩
  | 117 => ⟨S1200000, .i32⟩
  | 118 => ⟨S1200000x1, .i32⟩
  | 119 => ⟨S1200000x64, .f32⟩
  | 120 => ⟨S1200000x64, .f32⟩
  | 121 => ⟨S1x64x64, .f32⟩
  | 122 => ⟨S64x64, .f32⟩
  | 123 => ⟨S1200000x64, .f32⟩
  | 124 => ⟨S1200000x64, .f32⟩
  | 125 => ⟨S1x64, .f32⟩
  | 126 => ⟨S64, .f32⟩
  | 127 => ⟨S1x64, .f32⟩
  | _ => ⟨S50000x64, .f32⟩

abbrev hbmTy0_1 (i : Nat) : BufTy := match i % 128 with
  | 0 => ⟨S1200000x64, .f32⟩
  | 1 => ⟨S1200000x64, .f32⟩
  | 2 => ⟨S_, .f32⟩
  | 3 => ⟨S1200000x64, .f32⟩
  | 4 => ⟨S1200000x64, .f32⟩
  | 5 => ⟨S_, .f32⟩
  | 6 => ⟨S50000x64, .f32⟩
  | 7 => ⟨S1200000x1, .i32⟩
  | 8 => ⟨S50000x64, .f32⟩
  | 9 => ⟨S_, .i32⟩
  | 10 => ⟨S1200000, .i32⟩
  | 11 => ⟨S1200000, .i1⟩
  | 12 => ⟨S_, .i32⟩
  | 13 => ⟨S1200000, .i32⟩
  | 14 => ⟨S1200000, .i32⟩
  | 15 => ⟨S1200000, .i32⟩
  | 16 => ⟨S1200000x1, .i32⟩
  | 17 => ⟨S1200000x64, .f32⟩
  | 18 => ⟨S_, .i32⟩
  | 19 => ⟨S1200000, .i32⟩
  | 20 => ⟨S1200000, .i1⟩
  | 21 => ⟨S_, .i32⟩
  | 22 => ⟨S1200000, .i32⟩
  | 23 => ⟨S1200000, .i32⟩
  | 24 => ⟨S1200000, .i32⟩
  | 25 => ⟨S1200000x1, .i32⟩
  | 26 => ⟨S1200000x64, .f32⟩
  | 27 => ⟨S1200000x64, .f32⟩
  | 28 => ⟨S1x64x64, .f32⟩
  | 29 => ⟨S64x64, .f32⟩
  | 30 => ⟨S1200000x64, .f32⟩
  | 31 => ⟨S1200000x64, .f32⟩
  | 32 => ⟨S1x64, .f32⟩
  | 33 => ⟨S64, .f32⟩
  | 34 => ⟨S1x64, .f32⟩
  | 35 => ⟨S1200000x64, .f32⟩
  | 36 => ⟨S1200000x64, .f32⟩
  | 37 => ⟨S_, .f32⟩
  | 38 => ⟨S1200000x64, .f32⟩
  | 39 => ⟨S1200000x64, .f32⟩
  | 40 => ⟨S_, .f32⟩
  | 41 => ⟨S50000x64, .f32⟩
  | 42 => ⟨S1200000x1, .i32⟩
  | 43 => ⟨S50000x64, .f32⟩
  | 44 => ⟨S50000x128, .f32⟩
  | 45 => ⟨S50000x64, .f32⟩
  | 46 => ⟨S1x64, .f32⟩
  | 47 => ⟨S50000x64, .f32⟩
  | 48 => ⟨S50000x64, .f32⟩
  | 49 => ⟨S_, .f32⟩
  | 50 => ⟨S50000x64, .f32⟩
  | 51 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call1_cst : Ref sig .tc := ⟨.hbm, 60, rfl⟩
abbrev main_call1_v0 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_6 : Ref sig .tc := ⟨.hbm, 67, rfl⟩
abbrev main_v44 : Ref sig .tc := ⟨.hbm, 68, rfl⟩
abbrev main_v45 : Ref sig .tc := ⟨.hbm, 69, rfl⟩
abbrev main_c_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_8 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_call2_cst : Ref sig .tc := ⟨.hbm, 95, rfl⟩
abbrev main_call2_v0 : Ref sig .tc := ⟨.hbm, 96, rfl⟩
abbrev main_v68 : Ref sig .tc := ⟨.hbm, 97, rfl⟩
abbrev main_cst_10 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_11 : Ref sig .tc := ⟨.hbm, 102, rfl⟩
abbrev main_v72 : Ref sig .tc := ⟨.hbm, 103, rfl⟩
abbrev main_v73 : Ref sig .tc := ⟨.hbm, 104, rfl⟩
abbrev main_c_12 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_13 : Ref sig .tc := ⟨.hbm, 111, rfl⟩
abbrev main_v79 : Ref sig .tc := ⟨.hbm, 112, rfl⟩
abbrev main_v80 : Ref sig .tc := ⟨.hbm, 113, rfl⟩
abbrev main_c_14 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_call3_cst : Ref sig .tc := ⟨.hbm, 130, rfl⟩
abbrev main_call3_v0 : Ref sig .tc := ⟨.hbm, 131, rfl⟩
abbrev main_v96 : Ref sig .tc := ⟨.hbm, 132, rfl⟩
abbrev main_cst_15 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_16 : Ref sig .tc := ⟨.hbm, 137, rfl⟩
abbrev main_v100 : Ref sig .tc := ⟨.hbm, 138, rfl⟩
abbrev main_v101 : Ref sig .tc := ⟨.hbm, 139, rfl⟩
abbrev main_c_17 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_c_18 : Ref sig .tc := ⟨.hbm, 146, rfl⟩
abbrev main_v107 : Ref sig .tc := ⟨.hbm, 147, rfl⟩
abbrev main_v108 : Ref sig .tc := ⟨.hbm, 148, rfl⟩
abbrev main_c_19 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_call4_cst : Ref sig .tc := ⟨.hbm, 165, rfl⟩
abbrev main_call4_v0 : Ref sig .tc := ⟨.hbm, 166, rfl⟩
abbrev main_v124 : Ref sig .tc := ⟨.hbm, 167, rfl⟩
abbrev main_cst_20 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_call5_cst : Ref sig .tc := ⟨.hbm, 177, rfl⟩
abbrev main_call5_v0 : Ref sig .tc := ⟨.hbm, 178, rfl⟩
abbrev main_v133 : Ref sig .tc := ⟨.hbm, 179, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  concatenates_S1200000x64_S1200000x64_S1200000x128_d1 : Shape.Concatenates [S1200000x64, S1200000x64] S1200000x128 1
  bcast_S64_S1x64_1 : S64.BroadcastsInDim S1x64 (![1] : Fin 1 → Fin S1x64.rank)
  bcast_S1x64_S1200000x64_0_1 : S1x64.BroadcastsInDim S1200000x64 (![0, 1] : Fin 2 → Fin S1200000x64.rank)
  bcast_S_S1200000x64 : S_.BroadcastsInDim S1200000x64 (![] : Fin 0 → Fin S1200000x64.rank)
  bcast_S_S50000x64 : S_.BroadcastsInDim S50000x64 (![] : Fin 0 → Fin S50000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x64_S1200000x1_S1200000x64_1_0_n_n_0_1_164_wf : GatherDims.WF S50000x64 S1200000x1 S1200000x64 [1] [0] [] [0] [] 1 ![1, 64]
  dot_S1200000x128_S128x64_S1200000x64_1_0_0_1_n_n_wf : DotDims.WF S1200000x128 S128x64 S1200000x64 [1] [0] [0] [1] [] []
  scatter_S50000x64_S1200000x1_S1200000x64_1_0_0_1_wf : ScatterDims.WF S50000x64 S1200000x1 S1200000x64 [1] [0] [0] 1
  gather_S1200000x64_S1200000x1_S1200000x64_1_0_n_n_0_1_164_wf : GatherDims.WF S1200000x64 S1200000x1 S1200000x64 [1] [0] [] [0] [] 1 ![1, 64]
  dot_S1200000x64_S64x64_S1200000x64_1_0_0_1_n_n_wf : DotDims.WF S1200000x64 S64x64 S1200000x64 [1] [0] [0] [1] [] []
  dot_S50000x128_S128x64_S50000x64_1_0_0_1_n_n_wf : DotDims.WF S50000x128 S128x64 S50000x64 [1] [0] [0] [1] [] []

variable [Facts₀]

def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def dot_S1200000x128_S128x64_S1200000x64_1_0_0_1_n_n : DotDims S1200000x128 S128x64 S1200000x64 where
  lhsContracting := [1]
  rhsContracting := [0]
  lhsNonContracting := [0]
  rhsNonContracting := [1]
  lhsBatch := []
  rhsBatch := []
  wf := dot_S1200000x128_S128x64_S1200000x64_1_0_0_1_n_n_wf
def scatter_S50000x64_S1200000x1_S1200000x64_1_0_0_1 : ScatterDims S50000x64 S1200000x1 S1200000x64 where
  updateWindowDims := [1]
  insertedWindowDims := [0]
  scatterDimsToOperandDims := [0]
  indexVectorDim := 1
  wf := scatter_S50000x64_S1200000x1_S1200000x64_1_0_0_1_wf
def gather_S1200000x64_S1200000x1_S1200000x64_1_0_n_n_0_1_164 : GatherDims S1200000x64 S1200000x1 S1200000x64 where
  offsetDims := [1]
  collapsedSliceDims := [0]
  operandBatchingDims := []
  startIndicesBatchingDims := []
  startIndexMap := [0]
  indexVectorDim := 1
  sliceSizes := ![1, 64]
  wf := gather_S1200000x64_S1200000x1_S1200000x64_1_0_n_n_0_1_164_wf
def dot_S1200000x64_S64x64_S1200000x64_1_0_0_1_n_n : DotDims S1200000x64 S64x64 S1200000x64 where
  lhsContracting := [1]
  rhsContracting := [0]
  lhsNonContracting := [0]
  rhsNonContracting := [1]
  lhsBatch := []
  rhsBatch := []
  wf := dot_S1200000x64_S64x64_S1200000x64_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel's run with its two results named.  The program is six launches among stretches of host
  operations; every weakly fair execution terminates, the eleven argument arrays end as launched, and the two
  result arrays end at what the last boundary of the run holds for them: the node read-out array is the sixth
  launch's output, the last edge state the fifth launch's.
-/
import proofs.«131021_j16913581211836_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the node read-out and the last edge
    state end at the final boundary's contents, and the arguments end as launched. -/
theorem run_results : θ_run defs (onTc (τ := τ) (main (F := F))) ⟨m, fun _ => 0, ρ⟩ (fun r => ∀ c : Dev nD,
      r.2.mem ((c.tc : Thread nD τ).loc main_v109) = W12 m ρ c (Proc.devRef .tc main_v109)
      ∧ r.2.mem ((c.tc : Thread nD τ).loc main_v102) = W12 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v109 (by decide)), h c _ (mem_uc main_v102 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Whole

end
-- ==== Proof.Kept.lean ====
/-
  The argument arrays, and the first edge state, as every later boundary of the run finds them.  No host operation
  and no launch writes an argument, so at every boundary an argument's buffer holds what it was launched with; the
  first edge state is written by the first launch only and read, never written, by the four step launches.
-/
import proofs.«131021_j16913581211836_1_alg».proof.Proof.Gen.KernelIdeal.Frame

set_option maxRecDepth 16384

noncomputable section

namespace Cert.KernelIdeal.Kept

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! ## Argument 0 -/
theorem a0_W1 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem a0_W2 (c : Dev nD) : W2 m ρ c (Proc.devRef .tc main_arg0) = m ((c : Thread nD τ).loc main_arg0) :=
  (W2_of_ne m ρ c main_arg0 (by decide)).trans (a0_W1 m ρ c)
theorem a0_W3 (c : Dev nD) : W3 m ρ c (Proc.devRef .tc main_arg0) = m ((c : Thread nD τ).loc main_arg0) :=
  (StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a0_W2 m ρ c)
theorem a0_W4 (c : Dev nD) : W4 m ρ c (Proc.devRef .tc main_arg0) = m ((c : Thread nD τ).loc main_arg0) :=
  (W4_of_ne m ρ c main_arg0 (by decide)).trans (a0_W3 m ρ c)
theorem a0_W5 (c : Dev nD) : W5 m ρ c (Proc.devRef .tc main_arg0) = m ((c : Thread nD τ).loc main_arg0) :=
  (StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a0_W4 m ρ c)
theorem a0_W6 (c : Dev nD) : W6 m ρ c (Proc.devRef .tc main_arg0) = m ((c : Thread nD τ).loc main_arg0) :=
  (W6_of_ne m ρ c main_arg0 (by decide)).trans (a0_W5 m ρ c)
theorem a0_W7 (c : Dev nD) : W7 m ρ c (Proc.devRef .tc main_arg0) = m ((c : Thread nD τ).loc main_arg0) :=
  (StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a0_W6 m ρ c)
theorem a0_W8 (c : Dev nD) : W8 m ρ c (Proc.devRef .tc main_arg0) = m ((c : Thread nD τ).loc main_arg0) :=
  (W8_of_ne m ρ c main_arg0 (by decide)).trans (a0_W7 m ρ c)
theorem a0_W9 (c : Dev nD) : W9 m ρ c (Proc.devRef .tc main_arg0) = m ((c : Thread nD τ).loc main_arg0) :=
  (StableHlo.after_of_forall_not_mem (b := Proc.devRef .tc main_arg0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a0_W8 m ρ c)
theorem a0_W10 (c : Dev nD) : W10 m ρ c (Proc.devRef .tc main_arg0) = m ((c : Thread nD τ).loc main_arg0) :=
  (W10_of_ne m ρ c main_arg0 (by decide)).trans (a0_W9 m ρ c)
theorem a0_W11 (c : Dev nD) : W11 m ρ c (Proc.devRef .tc main_arg0) = m ((c : Thread nD τ).loc main_arg0) :=
  (StableHlo.after_of_forall_not_mem (b := Proc.devRef .tc main_arg0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a0_W10 m ρ c)

/-! ## Argument 1 -/
theorem a1_W1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-! ## Argument 2 -/
theorem a2_W1 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem a2_W2 (c : Dev nD) : W2 m ρ c (Proc.devRef .tc main_arg2) = m ((c : Thread nD τ).loc main_arg2) :=
  (W2_of_ne m ρ c main_arg2 (by decide)).trans (a2_W1 m ρ c)
theorem a2_W3 (c : Dev nD) : W3 m ρ c (Proc.devRef .tc main_arg2) = m ((c : Thread nD τ).loc main_arg2) :=
  (StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a2_W2 m ρ c)
theorem a2_W4 (c : Dev nD) : W4 m ρ c (Proc.devRef .tc main_arg2) = m ((c : Thread nD τ).loc main_arg2) :=
  (W4_of_ne m ρ c main_arg2 (by decide)).trans (a2_W3 m ρ c)
theorem a2_W5 (c : Dev nD) : W5 m ρ c (Proc.devRef .tc main_arg2) = m ((c : Thread nD τ).loc main_arg2) :=
  (StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a2_W4 m ρ c)
theorem a2_W6 (c : Dev nD) : W6 m ρ c (Proc.devRef .tc main_arg2) = m ((c : Thread nD τ).loc main_arg2) :=
  (W6_of_ne m ρ c main_arg2 (by decide)).trans (a2_W5 m ρ c)
theorem a2_W7 (c : Dev nD) : W7 m ρ c (Proc.devRef .tc main_arg2) = m ((c : Thread nD τ).loc main_arg2) :=
  (StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a2_W6 m ρ c)
theorem a2_W8 (c : Dev nD) : W8 m ρ c (Proc.devRef .tc main_arg2) = m ((c : Thread nD τ).loc main_arg2) :=
  (W8_of_ne m ρ c main_arg2 (by decide)).trans (a2_W7 m ρ c)

/-! ## Argument 3 -/
theorem a3_W1 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem a3_W2 (c : Dev nD) : W2 m ρ c (Proc.devRef .tc main_arg3) = m ((c : Thread nD τ).loc main_arg3) :=
  (W2_of_ne m ρ c main_arg3 (by decide)).trans (a3_W1 m ρ c)
theorem a3_W3 (c : Dev nD) : W3 m ρ c (Proc.devRef .tc main_arg3) = m ((c : Thread nD τ).loc main_arg3) :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a3_W2 m ρ c)
theorem a3_W4 (c : Dev nD) : W4 m ρ c (Proc.devRef .tc main_arg3) = m ((c : Thread nD τ).loc main_arg3) :=
  (W4_of_ne m ρ c main_arg3 (by decide)).trans (a3_W3 m ρ c)
theorem a3_W5 (c : Dev nD) : W5 m ρ c (Proc.devRef .tc main_arg3) = m ((c : Thread nD τ).loc main_arg3) :=
  (StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a3_W4 m ρ c)
theorem a3_W6 (c : Dev nD) : W6 m ρ c (Proc.devRef .tc main_arg3) = m ((c : Thread nD τ).loc main_arg3) :=
  (W6_of_ne m ρ c main_arg3 (by decide)).trans (a3_W5 m ρ c)
theorem a3_W7 (c : Dev nD) : W7 m ρ c (Proc.devRef .tc main_arg3) = m ((c : Thread nD τ).loc main_arg3) :=
  (StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a3_W6 m ρ c)
theorem a3_W8 (c : Dev nD) : W8 m ρ c (Proc.devRef .tc main_arg3) = m ((c : Thread nD τ).loc main_arg3) :=
  (W8_of_ne m ρ c main_arg3 (by decide)).trans (a3_W7 m ρ c)
theorem a3_W9 (c : Dev nD) : W9 m ρ c (Proc.devRef .tc main_arg3) = m ((c : Thread nD τ).loc main_arg3) :=
  (StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a3_W8 m ρ c)
theorem a3_W10 (c : Dev nD) : W10 m ρ c (Proc.devRef .tc main_arg3) = m ((c : Thread nD τ).loc main_arg3) :=
  (W10_of_ne m ρ c main_arg3 (by decide)).trans (a3_W9 m ρ c)

/-! ## Argument 4 -/
theorem a4_W1 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem a4_W2 (c : Dev nD) : W2 m ρ c (Proc.devRef .tc main_arg4) = m ((c : Thread nD τ).loc main_arg4) :=
  (W2_of_ne m ρ c main_arg4 (by decide)).trans (a4_W1 m ρ c)
theorem a4_W3 (c : Dev nD) : W3 m ρ c (Proc.devRef .tc main_arg4) = m ((c : Thread nD τ).loc main_arg4) :=
  (StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a4_W2 m ρ c)
theorem a4_W4 (c : Dev nD) : W4 m ρ c (Proc.devRef .tc main_arg4) = m ((c : Thread nD τ).loc main_arg4) :=
  (W4_of_ne m ρ c main_arg4 (by decide)).trans (a4_W3 m ρ c)
theorem a4_W5 (c : Dev nD) : W5 m ρ c (Proc.devRef .tc main_arg4) = m ((c : Thread nD τ).loc main_arg4) :=
  (StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a4_W4 m ρ c)
theorem a4_W6 (c : Dev nD) : W6 m ρ c (Proc.devRef .tc main_arg4) = m ((c : Thread nD τ).loc main_arg4) :=
  (W6_of_ne m ρ c main_arg4 (by decide)).trans (a4_W5 m ρ c)
theorem a4_W7 (c : Dev nD) : W7 m ρ c (Proc.devRef .tc main_arg4) = m ((c : Thread nD τ).loc main_arg4) :=
  (StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a4_W6 m ρ c)
theorem a4_W8 (c : Dev nD) : W8 m ρ c (Proc.devRef .tc main_arg4) = m ((c : Thread nD τ).loc main_arg4) :=
  (W8_of_ne m ρ c main_arg4 (by decide)).trans (a4_W7 m ρ c)

/-! ## Argument 7 -/
theorem a7_W1 (c : Dev nD) : W1 m ρ c (Proc.devRef .tc main_arg7) = m ((c : Thread nD τ).loc main_arg7) :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem a7_W2 (c : Dev nD) : W2 m ρ c (Proc.devRef .tc main_arg7) = m ((c : Thread nD τ).loc main_arg7) :=
  (W2_of_ne m ρ c main_arg7 (by decide)).trans (a7_W1 m ρ c)
theorem a7_W3 (c : Dev nD) : W3 m ρ c (Proc.devRef .tc main_arg7) = m ((c : Thread nD τ).loc main_arg7) :=
  (StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a7_W2 m ρ c)
theorem a7_W4 (c : Dev nD) : W4 m ρ c (Proc.devRef .tc main_arg7) = m ((c : Thread nD τ).loc main_arg7) :=
  (W4_of_ne m ρ c main_arg7 (by decide)).trans (a7_W3 m ρ c)
theorem a7_W5 (c : Dev nD) : W5 m ρ c (Proc.devRef .tc main_arg7) = m ((c : Thread nD τ).loc main_arg7) :=
  (StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a7_W4 m ρ c)
theorem a7_W6 (c : Dev nD) : W6 m ρ c (Proc.devRef .tc main_arg7) = m ((c : Thread nD τ).loc main_arg7) :=
  (W6_of_ne m ρ c main_arg7 (by decide)).trans (a7_W5 m ρ c)
theorem a7_W7 (c : Dev nD) : W7 m ρ c (Proc.devRef .tc main_arg7) = m ((c : Thread nD τ).loc main_arg7) :=
  (StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a7_W6 m ρ c)
theorem a7_W8 (c : Dev nD) : W8 m ρ c (Proc.devRef .tc main_arg7) = m ((c : Thread nD τ).loc main_arg7) :=
  (W8_of_ne m ρ c main_arg7 (by decide)).trans (a7_W7 m ρ c)

/-! ## Argument 8 -/
theorem a8_W1 (c : Dev nD) : W1 m ρ c (Proc.devRef .tc main_arg8) = m ((c : Thread nD τ).loc main_arg8) :=
  (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem a8_W2 (c : Dev nD) : W2 m ρ c (Proc.devRef .tc main_arg8) = m ((c : Thread nD τ).loc main_arg8) :=
  (W2_of_ne m ρ c main_arg8 (by decide)).trans (a8_W1 m ρ c)
theorem a8_W3 (c : Dev nD) : W3 m ρ c (Proc.devRef .tc main_arg8) = m ((c : Thread nD τ).loc main_arg8) :=
  (StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a8_W2 m ρ c)
theorem a8_W4 (c : Dev nD) : W4 m ρ c (Proc.devRef .tc main_arg8) = m ((c : Thread nD τ).loc main_arg8) :=
  (W4_of_ne m ρ c main_arg8 (by decide)).trans (a8_W3 m ρ c)
theorem a8_W5 (c : Dev nD) : W5 m ρ c (Proc.devRef .tc main_arg8) = m ((c : Thread nD τ).loc main_arg8) :=
  (StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a8_W4 m ρ c)
theorem a8_W6 (c : Dev nD) : W6 m ρ c (Proc.devRef .tc main_arg8) = m ((c : Thread nD τ).loc main_arg8) :=
  (W6_of_ne m ρ c main_arg8 (by decide)).trans (a8_W5 m ρ c)
theorem a8_W7 (c : Dev nD) : W7 m ρ c (Proc.devRef .tc main_arg8) = m ((c : Thread nD τ).loc main_arg8) :=
  (StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a8_W6 m ρ c)
theorem a8_W8 (c : Dev nD) : W8 m ρ c (Proc.devRef .tc main_arg8) = m ((c : Thread nD τ).loc main_arg8) :=
  (W8_of_ne m ρ c main_arg8 (by decide)).trans (a8_W7 m ρ c)

/-! ## Argument 9 -/
theorem a9_W1 (c : Dev nD) : W1 m ρ c (Proc.devRef .tc main_arg9) = m ((c : Thread nD τ).loc main_arg9) :=
  (StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem a9_W2 (c : Dev nD) : W2 m ρ c (Proc.devRef .tc main_arg9) = m ((c : Thread nD τ).loc main_arg9) :=
  (W2_of_ne m ρ c main_arg9 (by decide)).trans (a9_W1 m ρ c)
theorem a9_W3 (c : Dev nD) : W3 m ρ c (Proc.devRef .tc main_arg9) = m ((c : Thread nD τ).loc main_arg9) :=
  (StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a9_W2 m ρ c)
theorem a9_W4 (c : Dev nD) : W4 m ρ c (Proc.devRef .tc main_arg9) = m ((c : Thread nD τ).loc main_arg9) :=
  (W4_of_ne m ρ c main_arg9 (by decide)).trans (a9_W3 m ρ c)
theorem a9_W5 (c : Dev nD) : W5 m ρ c (Proc.devRef .tc main_arg9) = m ((c : Thread nD τ).loc main_arg9) :=
  (StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a9_W4 m ρ c)
theorem a9_W6 (c : Dev nD) : W6 m ρ c (Proc.devRef .tc main_arg9) = m ((c : Thread nD τ).loc main_arg9) :=
  (W6_of_ne m ρ c main_arg9 (by decide)).trans (a9_W5 m ρ c)
theorem a9_W7 (c : Dev nD) : W7 m ρ c (Proc.devRef .tc main_arg9) = m ((c : Thread nD τ).loc main_arg9) :=
  (StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a9_W6 m ρ c)
theorem a9_W8 (c : Dev nD) : W8 m ρ c (Proc.devRef .tc main_arg9) = m ((c : Thread nD τ).loc main_arg9) :=
  (W8_of_ne m ρ c main_arg9 (by decide)).trans (a9_W7 m ρ c)
theorem a9_W9 (c : Dev nD) : W9 m ρ c (Proc.devRef .tc main_arg9) = m ((c : Thread nD τ).loc main_arg9) :=
  (StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a9_W8 m ρ c)
theorem a9_W10 (c : Dev nD) : W10 m ρ c (Proc.devRef .tc main_arg9) = m ((c : Thread nD τ).loc main_arg9) :=
  (W10_of_ne m ρ c main_arg9 (by decide)).trans (a9_W9 m ρ c)

/-! ## Argument 10 -/
theorem a10_W1 (c : Dev nD) : W1 m ρ c (Proc.devRef .tc main_arg10) = m ((c : Thread nD τ).loc main_arg10) :=
  (StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem a10_W2 (c : Dev nD) : W2 m ρ c (Proc.devRef .tc main_arg10) = m ((c : Thread nD τ).loc main_arg10) :=
  (W2_of_ne m ρ c main_arg10 (by decide)).trans (a10_W1 m ρ c)
theorem a10_W3 (c : Dev nD) : W3 m ρ c (Proc.devRef .tc main_arg10) = m ((c : Thread nD τ).loc main_arg10) :=
  (StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a10_W2 m ρ c)
theorem a10_W4 (c : Dev nD) : W4 m ρ c (Proc.devRef .tc main_arg10) = m ((c : Thread nD τ).loc main_arg10) :=
  (W4_of_ne m ρ c main_arg10 (by decide)).trans (a10_W3 m ρ c)
theorem a10_W5 (c : Dev nD) : W5 m ρ c (Proc.devRef .tc main_arg10) = m ((c : Thread nD τ).loc main_arg10) :=
  (StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a10_W4 m ρ c)
theorem a10_W6 (c : Dev nD) : W6 m ρ c (Proc.devRef .tc main_arg10) = m ((c : Thread nD τ).loc main_arg10) :=
  (W6_of_ne m ρ c main_arg10 (by decide)).trans (a10_W5 m ρ c)
theorem a10_W7 (c : Dev nD) : W7 m ρ c (Proc.devRef .tc main_arg10) = m ((c : Thread nD τ).loc main_arg10) :=
  (StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a10_W6 m ρ c)
theorem a10_W8 (c : Dev nD) : W8 m ρ c (Proc.devRef .tc main_arg10) = m ((c : Thread nD τ).loc main_arg10) :=
  (W8_of_ne m ρ c main_arg10 (by decide)).trans (a10_W7 m ρ c)
theorem a10_W9 (c : Dev nD) : W9 m ρ c (Proc.devRef .tc main_arg10) = m ((c : Thread nD τ).loc main_arg10) :=
  (StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (a10_W8 m ρ c)
theorem a10_W10 (c : Dev nD) : W10 m ρ c (Proc.devRef .tc main_arg10) = m ((c : Thread nD τ).loc main_arg10) :=
  (W10_of_ne m ρ c main_arg10 (by decide)).trans (a10_W9 m ρ c)

/-! ## The first edge state -/
theorem h0_W3 (c : Dev nD) : W3 m ρ c (Proc.devRef .tc main_v10) = W2 m ρ c (Proc.devRef .tc main_v10) :=
  (StableHlo.after_of_forall_not_mem (b := Proc.devRef .tc main_v10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem h0_W4 (c : Dev nD) : W4 m ρ c (Proc.devRef .tc main_v10) = W2 m ρ c (Proc.devRef .tc main_v10) :=
  ((W4_arr m ρ c 2).trans (((dat1 (V3 m ρ) c).arrAt_in 2 rfl _).trans (A_eq1 (V3 m ρ) c 2))).trans (h0_W3 m ρ c)
theorem h0_W5 (c : Dev nD) : W5 m ρ c (Proc.devRef .tc main_v10) = W2 m ρ c (Proc.devRef .tc main_v10) :=
  (StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (h0_W4 m ρ c)
theorem h0_W6 (c : Dev nD) : W6 m ρ c (Proc.devRef .tc main_v10) = W2 m ρ c (Proc.devRef .tc main_v10) :=
  ((W6_arr m ρ c 2).trans (((dat2 (V5 m ρ) c).arrAt_in 2 rfl _).trans (A_eq2 (V5 m ρ) c 2))).trans (h0_W5 m ρ c)
theorem h0_W7 (c : Dev nD) : W7 m ρ c (Proc.devRef .tc main_v10) = W2 m ρ c (Proc.devRef .tc main_v10) :=
  (StableHlo.after_of_forall_not_mem (b := Proc.devRef .tc main_v10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (h0_W6 m ρ c)
theorem h0_W8 (c : Dev nD) : W8 m ρ c (Proc.devRef .tc main_v10) = W2 m ρ c (Proc.devRef .tc main_v10) :=
  ((W8_arr m ρ c 2).trans (((dat3 (V7 m ρ) c).arrAt_in 2 rfl _).trans (A_eq3 (V7 m ρ) c 2))).trans (h0_W7 m ρ c)
theorem h0_W9 (c : Dev nD) : W9 m ρ c (Proc.devRef .tc main_v10) = W2 m ρ c (Proc.devRef .tc main_v10) :=
  (StableHlo.after_of_forall_not_mem (b := Proc.devRef .tc main_v10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (h0_W8 m ρ c)

/-! ## The last edge state is what the fifth launch left -/
theorem last_W12 (c : Dev nD) : W12 m ρ c (Proc.devRef .tc main_v102) = W10 m ρ c (Proc.devRef .tc main_v102) :=
  (W12_of_ne m ρ c main_v102 (by decide)).trans (StableHlo.after_of_forall_not_mem (b := Proc.devRef .tc main_v102) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

end Cert.KernelIdeal.Kept

end
-- ==== Proof.Spec.lean ====
/-
  The three dense maps of directed message passing, as functions of whole arrays on the extended reals, and what a
  block of rows of each is.

  An edge's first state is the rectified affine image of its source node's features and its own features: row `r`,
  column `c` is  max (Σ_k x[r,k]·Wx[k,c] + Σ_k e[r,k]·We[k,c] + b[c]) 0  (`twoDots`; the node read-out has the same
  form over the nodes).  One message-passing step sends the edge's aggregated-minus-reverse message through a
  64×64 map on top of the first state:  max (h0[r,c] + Σ_k (a[r,k] − h[r,k])·W[k,c] + b[c]) 0  (`stepDot`).
  Both read only row `r` of their row-indexed operands, so a block of rows of the result is the same map of the
  same block of rows of the operands.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.MsgPass

open Idealize.ShloMosaic Idealize.ShloMosaic.ValueIdx

/-- Rectified sum of two 64-term products and a bias row: the edge initialisation and the node read-out. -/
def twoDots {R : Nat} (x e : FVec Ideal ⟨2, ![R, 64]⟩ .f32) (wx we : FVec Ideal ⟨2, ![64, 64]⟩ .f32)
    (b : FVec Ideal ⟨2, ![1, 64]⟩ .f32) : FVec Ideal ⟨2, ![R, 64]⟩ .f32 :=
  fun i => max ((∑ k : Fin 64, x (ix2 (i 0) k) * wx (ix2 k (i 1)) + ∑ k : Fin 64, e (ix2 (i 0) k) * we (ix2 k (i 1)))
    + b (ix2 (0 : Fin 1) (i 1))) (Ideal.ofBits .f32 0x00000000#32)

/-- One message-passing step: the first state plus the 64-term product of the message with the step's matrix, plus
    the bias row, rectified. -/
def stepDot {R : Nat} (a h h0 : FVec Ideal ⟨2, ![R, 64]⟩ .f32) (w : FVec Ideal ⟨2, ![64, 64]⟩ .f32)
    (b : FVec Ideal ⟨2, ![1, 64]⟩ .f32) : FVec Ideal ⟨2, ![R, 64]⟩ .f32 :=
  fun i => max ((h0 i + ∑ k : Fin 64, (a (ix2 (i 0) k) - h (ix2 (i 0) k)) * w (ix2 k (i 1)))
    + b (ix2 (0 : Fin 1) (i 1))) (Ideal.ofBits .f32 0x00000000#32)

end Cert.MsgPass

end
-- ==== Proof.Glue.lean ====
/-
  The host operations between the launches, as functions of arrays, and the whole computation as the program
  arranges it.  A look-up by a vector of indices first wraps negative indices by the table's length and makes the
  indices a column of row starts; `rowsN` looks rows up in a node table, `rowsE` in an edge table; `segSum` adds
  every edge row into the node row its destination index names, from an all-zero table.  The weight of the two
  128×64 maps splits into its top and bottom 64 rows; step `t`'s 64×64 matrix and bias row are cut out of the
  stacked step parameters.  With these, the first edge state is `firstState`, one step is `stepState` and the node
  read-out is `readOut`.
-/
import proofs.«131021_j16913581211836_1_alg».proof.Proof.Gen.KernelIdeal
import proofs.«131021_j16913581211836_1_alg».proof.Proof.Spec

noncomputable section

namespace Cert.KernelIdeal.Glue

open Idealize.ShloMosaic Idealize.ShloMosaic.TcCoe Cert.KernelIdeal Cert.KernelIdeal.Facts₀ Cert.KernelIdeal.Facts Cert.MsgPass

abbrev IdxV := (⟨S1200000, .i32⟩ : BufTy).Contents (Elt Ideal)
abbrev EdgeM := (⟨S1200000x64, .f32⟩ : BufTy).Contents (Elt Ideal)
abbrev NodeM := (⟨S50000x64, .f32⟩ : BufTy).Contents (Elt Ideal)
abbrev Mat128 := (⟨S128x64, .f32⟩ : BufTy).Contents (Elt Ideal)
abbrev Mat64 := (⟨S64x64, .f32⟩ : BufTy).Contents (Elt Ideal)
abbrev Row64 := (⟨S1x64, .f32⟩ : BufTy).Contents (Elt Ideal)
abbrev Vec64 := (⟨S64, .f32⟩ : BufTy).Contents (Elt Ideal)

/-- Indices into a 50000-row table as a column of row starts, negative ones wrapped. -/
def startsN (idx : IdxV) : (⟨S1200000x1, .i32⟩ : BufTy).Contents (Elt Ideal) :=
  broadcastInDim S1200000x1 ![0] bcast_S1200000_S1200000x1_0
    (select (cmpi .slt idx (broadcastInDim S1200000 ![] bcast_S_S1200000 (constantI S_ 32 0#32)))
      (addi idx (broadcastInDim S1200000 ![] bcast_S_S1200000 (constantI S_ 32 50000#32))) idx)

/-- Indices into a 1200000-row table as a column of row starts, negative ones wrapped. -/
def startsE (idx : IdxV) : (⟨S1200000x1, .i32⟩ : BufTy).Contents (Elt Ideal) :=
  broadcastInDim S1200000x1 ![0] bcast_S1200000_S1200000x1_0
    (select (cmpi .slt idx (broadcastInDim S1200000 ![] bcast_S_S1200000 (constantI S_ 32 0#32)))
      (addi idx (broadcastInDim S1200000 ![] bcast_S_S1200000 (constantI S_ 32 1200000#32))) idx)

/-- One node row per edge. -/
def rowsN (x : NodeM) (idx : IdxV) : EdgeM :=
  Host.gather gather_S50000x64_S1200000x1_S1200000x64_1_0_n_n_0_1_164 x (startsN idx)

/-- One edge row per edge. -/
def rowsE (x : EdgeM) (idx : IdxV) : EdgeM :=
  Host.gather gather_S1200000x64_S1200000x1_S1200000x64_1_0_n_n_0_1_164 x (startsE idx)

/-- Every edge row added into the node row its index names, from zero. -/
def segSum (idx : IdxV) (u : EdgeM) : NodeM :=
  Host.scatterAdd scatter_S50000x64_S1200000x1_S1200000x64_1_0_0_1
    (broadcastInDim S50000x64 ![] bcast_S_S50000x64 (constant (F := Ideal) S_ .f32 0x00000000#32))
    (broadcastInDim S1200000x1 ![0] bcast_S1200000_S1200000x1_0 idx) u

def topRows (w : Mat128) : Mat64 := extractStridedSlice S64x64 ![0, 0] w slices_S128x64_S64x64_0_0
def botRows (w : Mat128) : Mat64 := extractStridedSlice S64x64 ![64, 0] w slices_S128x64_S64x64_64_0
def biasRow (b : Vec64) : Row64 := shapeCast S1x64 b shapeCasts_S64_S1x64

/-- Step 0's matrix. -/
def stepW0 (w : (⟨S4x64x64, .f32⟩ : BufTy).Contents (Elt Ideal)) : Mat64 :=
  shapeCast S64x64 (extractStridedSlice S1x64x64 ![0, 0, 0] w slices_S4x64x64_S1x64x64_0_0_0) shapeCasts_S1x64x64_S64x64
/-- Step 0's bias, as a vector and as a row. -/
def stepV0 (b : (⟨S4x64, .f32⟩ : BufTy).Contents (Elt Ideal)) : Vec64 :=
  shapeCast S64 (extractStridedSlice S1x64 ![0, 0] b slices_S4x64_S1x64_0_0) shapeCasts_S1x64_S64
def stepB0 (b : (⟨S4x64, .f32⟩ : BufTy).Contents (Elt Ideal)) : Row64 :=
  shapeCast S1x64 (stepV0 b) shapeCasts_S64_S1x64

/-- Step 1's matrix. -/
def stepW1 (w : (⟨S4x64x64, .f32⟩ : BufTy).Contents (Elt Ideal)) : Mat64 :=
  shapeCast S64x64 (extractStridedSlice S1x64x64 ![1, 0, 0] w slices_S4x64x64_S1x64x64_1_0_0) shapeCasts_S1x64x64_S64x64
/-- Step 1's bias, as a vector and as a row. -/
def stepV1 (b : (⟨S4x64, .f32⟩ : BufTy).Contents (Elt Ideal)) : Vec64 :=
  shapeCast S64 (extractStridedSlice S1x64 ![1, 0] b slices_S4x64_S1x64_1_0) shapeCasts_S1x64_S64
def stepB1 (b : (⟨S4x64, .f32⟩ : BufTy).Contents (Elt Ideal)) : Row64 :=
  shapeCast S1x64 (stepV1 b) shapeCasts_S64_S1x64

/-- Step 2's matrix. -/
def stepW2 (w : (⟨S4x64x64, .f32⟩ : BufTy).Contents (Elt Ideal)) : Mat64 :=
  shapeCast S64x64 (extractStridedSlice S1x64x64 ![2, 0, 0] w slices_S4x64x64_S1x64x64_2_0_0) shapeCasts_S1x64x64_S64x64
/-- Step 2's bias, as a vector and as a row. -/
def stepV2 (b : (⟨S4x64, .f32⟩ : BufTy).Contents (Elt Ideal)) : Vec64 :=
  shapeCast S64 (extractStridedSlice S1x64 ![2, 0] b slices_S4x64_S1x64_2_0) shapeCasts_S1x64_S64
def stepB2 (b : (⟨S4x64, .f32⟩ : BufTy).Contents (Elt Ideal)) : Row64 :=
  shapeCast S1x64 (stepV2 b) shapeCasts_S64_S1x64

/-- Step 3's matrix. -/
def stepW3 (w : (⟨S4x64x64, .f32⟩ : BufTy).Contents (Elt Ideal)) : Mat64 :=
  shapeCast S64x64 (extractStridedSlice S1x64x64 ![3, 0, 0] w slices_S4x64x64_S1x64x64_3_0_0) shapeCasts_S1x64x64_S64x64
/-- Step 3's bias, as a vector and as a row. -/
def stepV3 (b : (⟨S4x64, .f32⟩ : BufTy).Contents (Elt Ideal)) : Vec64 :=
  shapeCast S64 (extractStridedSlice S1x64 ![3, 0] b slices_S4x64_S1x64_3_0) shapeCasts_S1x64_S64
def stepB3 (b : (⟨S4x64, .f32⟩ : BufTy).Contents (Elt Ideal)) : Row64 :=
  shapeCast S1x64 (stepV3 b) shapeCasts_S64_S1x64

/-- The first edge state. -/
def firstState (a0 : NodeM) (a1 : EdgeM) (a2 : IdxV) (a5 : Mat128) (a6 : Vec64) : EdgeM :=
  twoDots (rowsN a0 a2) a1 (topRows a5) (botRows a5) (biasRow a6)

/-- One message-passing step from the state `h`, with the step's matrix and bias row. -/
def stepState (w : Mat64) (b : Row64) (a2 a3 a4 : IdxV) (h0 h : EdgeM) : EdgeM :=
  stepDot (rowsN (segSum a3 h) a2) (rowsE h a4) h0 w b

/-- The node read-out of the last state. -/
def readOut (a0 : NodeM) (a3 : IdxV) (a9 : Mat128) (a10 : Vec64) (h : EdgeM) : NodeM :=
  twoDots a0 (segSum a3 h) (topRows a9) (botRows a9) (biasRow a10)

/-- The edge state after the four steps. -/
def finalState (a0 : NodeM) (a1 : EdgeM) (a2 a3 a4 : IdxV) (a5 : Mat128) (a6 : Vec64)
    (a7 : (⟨S4x64x64, .f32⟩ : BufTy).Contents (Elt Ideal)) (a8 : (⟨S4x64, .f32⟩ : BufTy).Contents (Elt Ideal)) : EdgeM :=
  stepState (stepW3 a7) (stepB3 a8) a2 a3 a4 (firstState a0 a1 a2 a5 a6)
    (stepState (stepW2 a7) (stepB2 a8) a2 a3 a4 (firstState a0 a1 a2 a5 a6)
      (stepState (stepW1 a7) (stepB1 a8) a2 a3 a4 (firstState a0 a1 a2 a5 a6)
        (stepState (stepW0 a7) (stepB0 a8) a2 a3 a4 (firstState a0 a1 a2 a5 a6) (firstState a0 a1 a2 a5 a6))))

/-- The node read-out of the whole computation. -/
def nodeOut (a0 : NodeM) (a1 : EdgeM) (a2 a3 a4 : IdxV) (a5 : Mat128) (a6 : Vec64)
    (a7 : (⟨S4x64x64, .f32⟩ : BufTy).Contents (Elt Ideal)) (a8 : (⟨S4x64, .f32⟩ : BufTy).Contents (Elt Ideal))
    (a9 : Mat128) (a10 : Vec64) : NodeM :=
  readOut a0 a3 a9 a10 (finalState a0 a1 a2 a3 a4 a5 a6 a7 a8)

end Cert.KernelIdeal.Glue

end
-- ==== Proof.Body.lean ====
/-
  What each launch's body computes on one block, index by index: the body's stored value at row `p`, column `q` of
  the block is the dense map of Spec.lean of the loaded blocks (a matrix unit fed a zero accumulator is the plain
  64-term sum; a change of float format is the identity on the extended reals; the bias row is broadcast down the
  rows).
-/
import proofs.«131021_j16913581211836_1_alg».proof.Proof.Gen.KernelIdeal.Skeleton
import proofs.«131021_j16913581211836_1_alg».proof.Proof.Spec

set_option maxRecDepth 16384

noncomputable section

namespace Cert.KernelIdeal.Body

open Idealize.ShloMosaic Idealize.ShloMosaic.TcCoe Idealize.ShloMosaic.ValueIdx Cert.KernelIdeal Cert.KernelIdeal.Gen Cert.MsgPass

theorem matmulE_lhs0 (i : S4800x64.Idx) (q : dot_S4800x64_S64x64_S4800x64_1_0_0_1_n_n.contr.Idx) : (dot_S4800x64_S64x64_S4800x64_1_0_0_1_n_n.lhsIdx i q 0).val = (i 0).val := by
  unfold DotDims.lhsIdx
  rw [dif_neg (show ¬(0 : Fin S4800x64.rank) ∈ dot_S4800x64_S64x64_S4800x64_1_0_0_1_n_n.lhsBatch by decide), dif_pos (show (0 : Fin S4800x64.rank) ∈ dot_S4800x64_S64x64_S4800x64_1_0_0_1_n_n.lhsNonContracting by decide)]
  rfl
theorem matmulE_lhs1 (i : S4800x64.Idx) (q : dot_S4800x64_S64x64_S4800x64_1_0_0_1_n_n.contr.Idx) : (dot_S4800x64_S64x64_S4800x64_1_0_0_1_n_n.lhsIdx i q 1).val = (q ⟨0, by decide⟩).val :=
  dot_S4800x64_S64x64_S4800x64_1_0_0_1_n_n.lhsIdx_val_of_single rfl i q
theorem matmulE_rhs0 (i : S4800x64.Idx) (q : dot_S4800x64_S64x64_S4800x64_1_0_0_1_n_n.contr.Idx) : (dot_S4800x64_S64x64_S4800x64_1_0_0_1_n_n.rhsIdx i q 0).val = (q ⟨0, by decide⟩).val :=
  dot_S4800x64_S64x64_S4800x64_1_0_0_1_n_n.rhsIdx_val_of_single rfl i q
theorem matmulE_rhs1 (i : S4800x64.Idx) (q : dot_S4800x64_S64x64_S4800x64_1_0_0_1_n_n.contr.Idx) : (dot_S4800x64_S64x64_S4800x64_1_0_0_1_n_n.rhsIdx i q 1).val = (i 1).val := by
  unfold DotDims.rhsIdx
  rw [dif_neg (show ¬(1 : Fin S64x64.rank) ∈ dot_S4800x64_S64x64_S4800x64_1_0_0_1_n_n.rhsBatch by decide), dif_pos (show (1 : Fin S64x64.rank) ∈ dot_S4800x64_S64x64_S4800x64_1_0_0_1_n_n.rhsNonContracting by decide)]
  rfl

/-- The 4800×64 by 64×64 product into a zero accumulator, at row `p`, column `q`: the sum over the 64 contracted
    positions. -/
theorem matmulE_apply (a : FVec Ideal S4800x64 .bf16) (b : FVec Ideal S64x64 .bf16) (p : Fin 4800) (q : Fin 64) :
    matmul dot_S4800x64_S64x64_S4800x64_1_0_0_1_n_n none a b (constant S4800x64 .f32 0x00000000#32) (ix2 p q)
      = ∑ k : Fin 64, a (ix2 p k) * b (ix2 k q) := by
  refine (Ideal.matmul_constant_zero_apply dot_S4800x64_S64x64_S4800x64_1_0_0_1_n_n none a b (ix2 p q)).trans ?_
  rw [← Equiv.sum_comp (ValueIdx.contrEquiv1 dot_S4800x64_S64x64_S4800x64_1_0_0_1_n_n 64 rfl rfl).symm]
  refine Finset.sum_congr rfl fun k _ => ?_
  have hk := ValueIdx.contrEquiv1_symm_val dot_S4800x64_S64x64_S4800x64_1_0_0_1_n_n 64 rfl rfl k
  have el : dot_S4800x64_S64x64_S4800x64_1_0_0_1_n_n.lhsIdx (ix2 p q) ((ValueIdx.contrEquiv1 dot_S4800x64_S64x64_S4800x64_1_0_0_1_n_n 64 rfl rfl).symm k) = ix2 p k := funext fun a => Fin.ext (by
    match a with
    | ⟨0, _⟩ => exact matmulE_lhs0 _ _
    | ⟨1, _⟩ => exact (matmulE_lhs1 _ _).trans hk)
  have er : dot_S4800x64_S64x64_S4800x64_1_0_0_1_n_n.rhsIdx (ix2 p q) ((ValueIdx.contrEquiv1 dot_S4800x64_S64x64_S4800x64_1_0_0_1_n_n 64 rfl rfl).symm k) = ix2 k q := funext fun a => Fin.ext (by
    match a with
    | ⟨0, _⟩ => exact (matmulE_rhs0 _ _).trans hk
    | ⟨1, _⟩ => exact matmulE_rhs1 _ _)
  rw [el, er]

theorem matmulN_lhs0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem matmulN_lhs1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem matmulN_rhs0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem matmulN_rhs1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The 5000×64 by 64×64 product into a zero accumulator, at row `p`, column `q`: the sum over the 64 contracted
    positions. -/
theorem matmulN_apply (a : FVec Ideal S5000x64 .bf16) (b : FVec Ideal S64x64 .bf16) (p : Fin 5000) (q : Fin 64) :
    matmul dot_S5000x64_S64x64_S5000x64_1_0_0_1_n_n none a b (constant S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact matmulN_lhs0 _ _
    | ⟨1, _⟩ => exact (matmulN_lhs1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (matmulN_rhs0 _ _).trans hk
    | ⟨1, _⟩ => exact matmulN_rhs1 _ _)
  rw [el, er]

/-- Launch 0's stored value at row `p`, column `q` of the block. -/
theorem two0_pay_apply (x0 x1 : Vec Ideal S4800x64 .f32) (x2 x3 : Vec Ideal S64x64 .f32) (x4 : Vec Ideal S1x64 .f32)
    (p : Fin 4800) (q : Fin 64) :
    k0_pay1 (F := Ideal) x0 x1 x2 x3 x4 (ix2 p q)
      = max ((∑ k : Fin 64, x0 (ix2 p k) * x2 (ix2 k q) + ∑ k : Fin 64, x1 (ix2 p k) * x3 (ix2 k q))
          + x4 (ix2 (0 : Fin 1) q)) (Ideal.ofBits .f32 0x00000000#32) := by
  unfold k0_pay1
  rw [maximumf_apply, addf_apply, addf_apply, matmulE_apply, matmulE_apply]
  simp only [shapeCast_self, truncf_apply]
  rw [broadcastTo_1b_ab_apply]
  rfl

/-- Row `p` of the block is row `r` of the arrays: the stored value is the dense map of the whole arrays at row `r`. -/
theorem two0_block (x0 x1 : Vec Ideal S4800x64 .f32) (x2 x3 : Vec Ideal S64x64 .f32) (x4 : Vec Ideal S1x64 .f32)
    (X E : FVec Ideal S1200000x64 .f32) (WX WE : FVec Ideal S64x64 .f32) (B : FVec Ideal S1x64 .f32)
    (p : Fin 4800) (q : Fin 64) (r : Fin 1200000)
    (hx : ∀ k : Fin 64, x0 (ix2 p k) = X (ix2 r k)) (he : ∀ k : Fin 64, x1 (ix2 p k) = E (ix2 r k))
    (hwx : ∀ k : Fin 64, x2 (ix2 k q) = WX (ix2 k q)) (hwe : ∀ k : Fin 64, x3 (ix2 k q) = WE (ix2 k q))
    (hb : x4 (ix2 (0 : Fin 1) q) = B (ix2 (0 : Fin 1) q)) :
    k0_pay1 (F := Ideal) x0 x1 x2 x3 x4 (ix2 p q) = twoDots X E WX WE B (ix2 r q) := by
  rw [two0_pay_apply]
  show _ = max ((∑ k : Fin 64, X (ix2 r k) * WX (ix2 k q) + ∑ k : Fin 64, E (ix2 r k) * WE (ix2 k q))
    + B (ix2 (0 : Fin 1) q)) (Ideal.ofBits .f32 0x00000000#32)
  simp only [hx, he, hwx, hwe, hb]

/-- Launch 1's stored value at row `p`, column `q` of the block (the body's loads in its own order: aggregate,
    reverse state, matrix, first state, bias). -/
theorem step1_pay_apply (x0 x1 : Vec Ideal S4800x64 .f32) (w : Vec Ideal S64x64 .f32) (x2 : Vec Ideal S4800x64 .f32)
    (x4 : Vec Ideal S1x64 .f32) (p : Fin 4800) (q : Fin 64) :
    k1_pay1 (F := Ideal) x0 x1 w x2 x4 (ix2 p q)
      = max ((x2 (ix2 p q) + ∑ k : Fin 64, (x0 (ix2 p k) - x1 (ix2 p k)) * w (ix2 k q))
          + x4 (ix2 (0 : Fin 1) q)) (Ideal.ofBits .f32 0x00000000#32) := by
  unfold k1_pay1
  rw [maximumf_apply, addf_apply, addf_apply, matmulE_apply]
  simp only [shapeCast_self, truncf_apply, subf_apply]
  rw [broadcastTo_1b_ab_apply]
  rfl

/-- Row `p` of the block is row `r` of the arrays: the stored value is the step map of the whole arrays at row `r`. -/
theorem step1_block (x0 x1 x2 : Vec Ideal S4800x64 .f32) (x3 : Vec Ideal S64x64 .f32) (x4 : Vec Ideal S1x64 .f32)
    (A H H0 : FVec Ideal S1200000x64 .f32) (W : FVec Ideal S64x64 .f32) (B : FVec Ideal S1x64 .f32)
    (p : Fin 4800) (q : Fin 64) (r : Fin 1200000)
    (ha : ∀ k : Fin 64, x0 (ix2 p k) = A (ix2 r k)) (hh : ∀ k : Fin 64, x1 (ix2 p k) = H (ix2 r k))
    (h0 : x2 (ix2 p q) = H0 (ix2 r q))
    (hw : ∀ k : Fin 64, x3 (ix2 k q) = W (ix2 k q))
    (hb : x4 (ix2 (0 : Fin 1) q) = B (ix2 (0 : Fin 1) q)) :
    k1_pay1 (F := Ideal) x0 x1 x3 x2 x4 (ix2 p q) = stepDot A H H0 W B (ix2 r q) := by
  rw [step1_pay_apply]
  show _ = max ((H0 (ix2 r q) + ∑ k : Fin 64, (A (ix2 r k) - H (ix2 r k)) * W (ix2 k q))
    + B (ix2 (0 : Fin 1) q)) (Ideal.ofBits .f32 0x00000000#32)
  simp only [ha, hh, h0, hw, hb]

/-- Launch 2's stored value at row `p`, column `q` of the block (the body's loads in its own order: aggregate,
    reverse state, matrix, first state, bias). -/
theorem step2_pay_apply (x0 x1 : Vec Ideal S4800x64 .f32) (w : Vec Ideal S64x64 .f32) (x2 : Vec Ideal S4800x64 .f32)
    (x4 : Vec Ideal S1x64 .f32) (p : Fin 4800) (q : Fin 64) :
    k2_pay1 (F := Ideal) x0 x1 w x2 x4 (ix2 p q)
      = max ((x2 (ix2 p q) + ∑ k : Fin 64, (x0 (ix2 p k) - x1 (ix2 p k)) * w (ix2 k q))
          + x4 (ix2 (0 : Fin 1) q)) (Ideal.ofBits .f32 0x00000000#32) := by
  unfold k2_pay1
  rw [maximumf_apply, addf_apply, addf_apply, matmulE_apply]
  simp only [shapeCast_self, truncf_apply, subf_apply]
  rw [broadcastTo_1b_ab_apply]
  rfl

/-- Row `p` of the block is row `r` of the arrays: the stored value is the step map of the whole arrays at row `r`. -/
theorem step2_block (x0 x1 x2 : Vec Ideal S4800x64 .f32) (x3 : Vec Ideal S64x64 .f32) (x4 : Vec Ideal S1x64 .f32)
    (A H H0 : FVec Ideal S1200000x64 .f32) (W : FVec Ideal S64x64 .f32) (B : FVec Ideal S1x64 .f32)
    (p : Fin 4800) (q : Fin 64) (r : Fin 1200000)
    (ha : ∀ k : Fin 64, x0 (ix2 p k) = A (ix2 r k)) (hh : ∀ k : Fin 64, x1 (ix2 p k) = H (ix2 r k))
    (h0 : x2 (ix2 p q) = H0 (ix2 r q))
    (hw : ∀ k : Fin 64, x3 (ix2 k q) = W (ix2 k q))
    (hb : x4 (ix2 (0 : Fin 1) q) = B (ix2 (0 : Fin 1) q)) :
    k2_pay1 (F := Ideal) x0 x1 x3 x2 x4 (ix2 p q) = stepDot A H H0 W B (ix2 r q) := by
  rw [step2_pay_apply]
  show _ = max ((H0 (ix2 r q) + ∑ k : Fin 64, (A (ix2 r k) - H (ix2 r k)) * W (ix2 k q))
    + B (ix2 (0 : Fin 1) q)) (Ideal.ofBits .f32 0x00000000#32)
  simp only [ha, hh, h0, hw, hb]

/-- Launch 3's stored value at row `p`, column `q` of the block (the body's loads in its own order: aggregate,
    reverse state, matrix, first state, bias). -/
theorem step3_pay_apply (x0 x1 : Vec Ideal S4800x64 .f32) (w : Vec Ideal S64x64 .f32) (x2 : Vec Ideal S4800x64 .f32)
    (x4 : Vec Ideal S1x64 .f32) (p : Fin 4800) (q : Fin 64) :
    k3_pay1 (F := Ideal) x0 x1 w x2 x4 (ix2 p q)
      = max ((x2 (ix2 p q) + ∑ k : Fin 64, (x0 (ix2 p k) - x1 (ix2 p k)) * w (ix2 k q))
          + x4 (ix2 (0 : Fin 1) q)) (Ideal.ofBits .f32 0x00000000#32) := by
  unfold k3_pay1
  rw [maximumf_apply, addf_apply, addf_apply, matmulE_apply]
  simp only [shapeCast_self, truncf_apply, subf_apply]
  rw [broadcastTo_1b_ab_apply]
  rfl

/-- Row `p` of the block is row `r` of the arrays: the stored value is the step map of the whole arrays at row `r`. -/
theorem step3_block (x0 x1 x2 : Vec Ideal S4800x64 .f32) (x3 : Vec Ideal S64x64 .f32) (x4 : Vec Ideal S1x64 .f32)
    (A H H0 : FVec Ideal S1200000x64 .f32) (W : FVec Ideal S64x64 .f32) (B : FVec Ideal S1x64 .f32)
    (p : Fin 4800) (q : Fin 64) (r : Fin 1200000)
    (ha : ∀ k : Fin 64, x0 (ix2 p k) = A (ix2 r k)) (hh : ∀ k : Fin 64, x1 (ix2 p k) = H (ix2 r k))
    (h0 : x2 (ix2 p q) = H0 (ix2 r q))
    (hw : ∀ k : Fin 64, x3 (ix2 k q) = W (ix2 k q))
    (hb : x4 (ix2 (0 : Fin 1) q) = B (ix2 (0 : Fin 1) q)) :
    k3_pay1 (F := Ideal) x0 x1 x3 x2 x4 (ix2 p q) = stepDot A H H0 W B (ix2 r q) := by
  rw [step3_pay_apply]
  show _ = max ((H0 (ix2 r q) + ∑ k : Fin 64, (A (ix2 r k) - H (ix2 r k)) * W (ix2 k q))
    + B (ix2 (0 : Fin 1) q)) (Ideal.ofBits .f32 0x00000000#32)
  simp only [ha, hh, h0, hw, hb]

/-- Launch 4's stored value at row `p`, column `q` of the block (the body's loads in its own order: aggregate,
    reverse state, matrix, first state, bias). -/
theorem step4_pay_apply (x0 x1 : Vec Ideal S4800x64 .f32) (w : Vec Ideal S64x64 .f32) (x2 : Vec Ideal S4800x64 .f32)
    (x4 : Vec Ideal S1x64 .f32) (p : Fin 4800) (q : Fin 64) :
    k4_pay1 (F := Ideal) x0 x1 w x2 x4 (ix2 p q)
      = max ((x2 (ix2 p q) + ∑ k : Fin 64, (x0 (ix2 p k) - x1 (ix2 p k)) * w (ix2 k q))
          + x4 (ix2 (0 : Fin 1) q)) (Ideal.ofBits .f32 0x00000000#32) := by
  unfold k4_pay1
  rw [maximumf_apply, addf_apply, addf_apply, matmulE_apply]
  simp only [shapeCast_self, truncf_apply, subf_apply]
  rw [broadcastTo_1b_ab_apply]
  rfl

/-- Row `p` of the block is row `r` of the arrays: the stored value is the step map of the whole arrays at row `r`. -/
theorem step4_block (x0 x1 x2 : Vec Ideal S4800x64 .f32) (x3 : Vec Ideal S64x64 .f32) (x4 : Vec Ideal S1x64 .f32)
    (A H H0 : FVec Ideal S1200000x64 .f32) (W : FVec Ideal S64x64 .f32) (B : FVec Ideal S1x64 .f32)
    (p : Fin 4800) (q : Fin 64) (r : Fin 1200000)
    (ha : ∀ k : Fin 64, x0 (ix2 p k) = A (ix2 r k)) (hh : ∀ k : Fin 64, x1 (ix2 p k) = H (ix2 r k))
    (h0 : x2 (ix2 p q) = H0 (ix2 r q))
    (hw : ∀ k : Fin 64, x3 (ix2 k q) = W (ix2 k q))
    (hb : x4 (ix2 (0 : Fin 1) q) = B (ix2 (0 : Fin 1) q)) :
    k4_pay1 (F := Ideal) x0 x1 x3 x2 x4 (ix2 p q) = stepDot A H H0 W B (ix2 r q) := by
  rw [step4_pay_apply]
  show _ = max ((H0 (ix2 r q) + ∑ k : Fin 64, (A (ix2 r k) - H (ix2 r k)) * W (ix2 k q))
    + B (ix2 (0 : Fin 1) q)) (Ideal.ofBits .f32 0x00000000#32)
  simp only [ha, hh, h0, hw, hb]

/-- Launch 5's stored value at row `p`, column `q` of the block. -/
theorem two5_pay_apply (x0 x1 : Vec Ideal S5000x64 .f32) (x2 x3 : Vec Ideal S64x64 .f32) (x4 : Vec Ideal S1x64 .f32)
    (p : Fin 5000) (q : Fin 64) :
    k5_pay1 (F := Ideal) x0 x1 x2 x3 x4 (ix2 p q)
      = max ((∑ k : Fin 64, x0 (ix2 p k) * x2 (ix2 k q) + ∑ k : Fin 64, x1 (ix2 p k) * x3 (ix2 k q))
          + x4 (ix2 (0 : Fin 1) q)) (Ideal.ofBits .f32 0x00000000#32) := by
  unfold k5_pay1
  rw [maximumf_apply, addf_apply, addf_apply, matmulN_apply, matmulN_apply]
  simp only [shapeCast_self, truncf_apply]
  rw [broadcastTo_1b_ab_apply]
  rfl

/-- Row `p` of the block is row `r` of the arrays: the stored value is the dense map of the whole arrays at row `r`. -/
theorem two5_block (x0 x1 : Vec Ideal S5000x64 .f32) (x2 x3 : Vec Ideal S64x64 .f32) (x4 : Vec Ideal S1x64 .f32)
    (X E : FVec Ideal S50000x64 .f32) (WX WE : FVec Ideal S64x64 .f32) (B : FVec Ideal S1x64 .f32)
    (p : Fin 5000) (q : Fin 64) (r : Fin 50000)
    (hx : ∀ k : Fin 64, x0 (ix2 p k) = X (ix2 r k)) (he : ∀ k : Fin 64, x1 (ix2 p k) = E (ix2 r k))
    (hwx : ∀ k : Fin 64, x2 (ix2 k q) = WX (ix2 k q)) (hwe : ∀ k : Fin 64, x3 (ix2 k q) = WE (ix2 k q))
    (hb : x4 (ix2 (0 : Fin 1) q) = B (ix2 (0 : Fin 1) q)) :
    k5_pay1 (F := Ideal) x0 x1 x2 x3 x4 (ix2 p q) = twoDots X E WX WE B (ix2 r q) := by
  rw [two5_pay_apply]
  show _ = max ((∑ k : Fin 64, X (ix2 r k) * WX (ix2 k q) + ∑ k : Fin 64, E (ix2 r k) * WE (ix2 k q))
    + B (ix2 (0 : Fin 1) q)) (Ideal.ofBits .f32 0x00000000#32)
  simp only [hx, he, hwx, hwe, hb]

end Cert.KernelIdeal.Body

end
-- ==== Proof.Reg0.lean ====
/-
  Launch 0 as one function of whole arrays.  Point `t` of its grid works on rows 4800·t … 4800·t + 4799: it
  fetches those rows of the row-indexed operands and the whole of the two small ones, and writes back those rows of
  the result.  The body's value on the block is the dense map of the fetched blocks, which reads only the block's
  own rows, so what point `t` writes back is rows 4800·t … of the dense map of the WHOLE operand arrays as the
  launch finds them; the 250 blocks tile the 1200000 rows, so the result array ends at that map.
-/
import proofs.«131021_j16913581211836_1_alg».proof.Proof.Gen.KernelIdeal.Frame
import proofs.«131021_j16913581211836_1_alg».proof.Proof.Body

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.MsgPass

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-indexed windows sit at block row `t`, the small ones at the
    origin. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0 :=
  (by decide +kernel : ∀ t : Fin grid0.N, _)

/-- What point `t` writes back is its block of rows of the dense map of the whole arrays. -/
theorem flushed_eq (c : Dev nD) (t : Fin cfg0.N) :
    (dat0 V c).flushed 5 t = ((cfg0.win 5).blk t).view.read (Elt Ideal)
      (twoDots (V c main_v9) (V c main_arg1) (V c main_v0) (V c main_v1) (V c main_v2)) := by
  show (cfg0.win 5).cut (grid0.coords t) ((dat0 V c).after 5 t) = _
  rw [after0_5]
  unfold out0_5
  rw [View.canon_unit_zero origin]
  simp only [View.ld_unit_zero (S := S4800x64) origin, View.ld_unit_zero (S := S64x64) origin, View.ld_unit_zero (S := S1x64) origin]
  obtain ⟨e00, e01, e10, e11, e20, e21, e30, e31, e40, e41, e50, e51⟩ := idx_facts t
  have hN : t.val < 250 := by have h := t.isLt; have e : cfg0.N = 250 := N_0; omega
  funext j
  have hj0 : (j 0).val < 4800 := (j 0).isLt
  have hj1 : (j 1).val < 64 := (j 1).isLt
  have hr : t.val * 4800 + (j 0).val < 1200000 := by omega
  let r : Fin 1200000 := ⟨t.val * 4800 + (j 0).val, hr⟩
  have hemb : ((cfg0.win 5).blk t).view.emb j = ix2 r (j 1) := by
    funext a; apply Fin.ext
    match a with
    | ⟨0, _⟩ => show win0_5.index t (0 : Fin 2) * 4800 + 1 * (j 0).val = t.val * 4800 + (j 0).val; omega
    | ⟨1, _⟩ => show win0_5.index t (1 : Fin 2) * 64 + 1 * (j 1).val = (j 1).val; omega
  show _ = (twoDots (V c main_v9) (V c main_arg1) (V c main_v0) (V c main_v1) (V c main_v2)) (((cfg0.win 5).blk t).view.emb j)
  rw [hemb]
  refine (congrArg _ (eq_ix2 j)).trans ?_
  exact two0_block (iblk0 V c 0 t) (iblk0 V c 1 t) (iblk0 V c 2 t) (iblk0 V c 3 t) (iblk0 V c 4 t)
    (V c main_v9) (V c main_arg1) (V c main_v0) (V c main_v1) (V c main_v2) (j 0) (j 1) r
    (fun k => by
      show V c main_v9 (((cfg0.win 0).blk t).view.emb (ix2 (j 0) k)) = V c main_v9 (ix2 r k)
      refine congrArg _ (funext fun a => Fin.ext ?_)
      match a with
      | ⟨0, _⟩ => show win0_0.index t (0 : Fin 2) * 4800 + 1 * (j 0).val = t.val * 4800 + (j 0).val; omega
      | ⟨1, _⟩ => show win0_0.index t (1 : Fin 2) * 64 + 1 * k.val = k.val; omega)
    (fun k => by
      show V c main_arg1 (((cfg0.win 1).blk t).view.emb (ix2 (j 0) k)) = V c main_arg1 (ix2 r k)
      refine congrArg _ (funext fun a => Fin.ext ?_)
      match a with
      | ⟨0, _⟩ => show win0_1.index t (0 : Fin 2) * 4800 + 1 * (j 0).val = t.val * 4800 + (j 0).val; omega
      | ⟨1, _⟩ => show win0_1.index t (1 : Fin 2) * 64 + 1 * k.val = k.val; omega)
    (fun k => by
      show V c main_v0 (((cfg0.win 2).blk t).view.emb (ix2 k (j 1))) = V c main_v0 (ix2 k (j 1))
      refine congrArg _ (funext fun a => Fin.ext ?_)
      match a with
      | ⟨0, _⟩ => show win0_2.index t (0 : Fin 2) * 64 + 1 * k.val = k.val; omega
      | ⟨1, _⟩ => show win0_2.index t (1 : Fin 2) * 64 + 1 * (j 1).val = (j 1).val; omega)
    (fun k => by
      show V c main_v1 (((cfg0.win 3).blk t).view.emb (ix2 k (j 1))) = V c main_v1 (ix2 k (j 1))
      refine congrArg _ (funext fun a => Fin.ext ?_)
      match a with
      | ⟨0, _⟩ => show win0_3.index t (0 : Fin 2) * 64 + 1 * k.val = k.val; omega
      | ⟨1, _⟩ => show win0_3.index t (1 : Fin 2) * 64 + 1 * (j 1).val = (j 1).val; omega)
    (by
      show V c main_v2 (((cfg0.win 4).blk t).view.emb (ix2 (0 : Fin 1) (j 1))) = V c main_v2 (ix2 (0 : Fin 1) (j 1))
      refine congrArg _ (funext fun a => Fin.ext ?_)
      match a with
      | ⟨0, _⟩ => show win0_4.index t (0 : Fin 2) * 1 + 1 * 0 = 0; omega
      | ⟨1, _⟩ => show win0_4.index t (1 : Fin 2) * 64 + 1 * (j 1).val = (j 1).val; omega)

/-- An index of the array is in point `t`'s block iff each coordinate is in the block's range on its axis. -/
theorem mem_blk (t : Fin cfg0.N) (i : S1200000x64.Idx) :
    i ∈ ((cfg0.win 5).blk t).view.set ↔ ∀ a : Fin 2, win0_5.index t a * S4800x64.size a ≤ (i a).val ∧ (i a).val < win0_5.index t a * S4800x64.size a + S4800x64.size a := by
  show i ∈ ((View.whole main_v10).slice (win0_5.rect t)).set ↔ _
  rw [View.set_slice_whole, Rect.mem_set_unit]
  exact Iff.rfl

/-- The result array after the launch: the dense map of the operand arrays as the launch finds them. -/
theorem final (c : Dev nD) : (dat0 V c).arrAt 5 cfg0.N = twoDots (V c main_v9) (V c main_arg1) (V c main_v0) (V c main_v1) (V c main_v2) :=
  (dat0 V c).arrAt_eq_of_cover 5 _ (fun t _ => flushed_eq V c t) fun i => by
    have hi0 : (i 0).val < 1200000 := (i 0).isLt
    have hi1 : (i 1).val < 64 := (i 1).isLt
    have hq : (i 0).val / 4800 < cfg0.N := by have e : cfg0.N = 250 := N_0; omega
    refine ⟨⟨(i 0).val / 4800, hq⟩, flush0_5 _, ?_⟩
    rw [mem_blk]
    obtain ⟨e00, e01, e10, e11, e20, e21, e30, e31, e40, e41, e50, e51⟩ := idx_facts ⟨(i 0).val / 4800, hq⟩
    intro a
    match a with
    | ⟨0, _⟩ =>
      show win0_5.index ⟨(i 0).val / 4800, hq⟩ (0 : Fin 2) * 4800 ≤ (i 0).val ∧ (i 0).val < win0_5.index ⟨(i 0).val / 4800, hq⟩ (0 : Fin 2) * 4800 + 4800
      rw [e50]; show (i 0).val / 4800 * 4800 ≤ (i 0).val ∧ (i 0).val < (i 0).val / 4800 * 4800 + 4800; omega
    | ⟨1, _⟩ =>
      show win0_5.index ⟨(i 0).val / 4800, hq⟩ (1 : Fin 2) * 64 ≤ (i 1).val ∧ (i 1).val < win0_5.index ⟨(i 0).val / 4800, hq⟩ (1 : Fin 2) * 64 + 64
      rw [e51]; omega

end Cert.KernelIdeal.Reg0

end
-- ==== Proof.Reg1.lean ====
/-
  Launch 1 as one function of whole arrays.  Point `t` of its grid works on rows 4800·t … 4800·t + 4799: it
  fetches those rows of the row-indexed operands and the whole of the two small ones, and writes back those rows of
  the result.  The body's value on the block is the dense map of the fetched blocks, which reads only the block's
  own rows, so what point `t` writes back is rows 4800·t … of the dense map of the WHOLE operand arrays as the
  launch finds them; the 250 blocks tile the 1200000 rows, so the result array ends at that map.
-/
import proofs.«131021_j16913581211836_1_alg».proof.Proof.Gen.KernelIdeal.Frame
import proofs.«131021_j16913581211836_1_alg».proof.Proof.Body

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.MsgPass

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-indexed windows sit at block row `t`, the small ones at the
    origin. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- What point `t` writes back is its block of rows of the dense map of the whole arrays. -/
theorem flushed_eq (c : Dev nD) (t : Fin cfg1.N) :
    (dat1 V c).flushed 5 t = ((cfg1.win 5).blk t).view.read (Elt Ideal)
      (stepDot (V c main_v20) (V c main_v27) (V c main_v10) (V c main_v29) (V c main_v32)) := by
  show (cfg1.win 5).cut (grid1.coords t) ((dat1 V c).after 5 t) = _
  rw [after1_5]
  unfold out1_5
  rw [View.canon_unit_zero origin]
  simp only [View.ld_unit_zero (S := S4800x64) origin, View.ld_unit_zero (S := S64x64) origin, View.ld_unit_zero (S := S1x64) origin]
  obtain ⟨e00, e01, e10, e11, e20, e21, e30, e31, e40, e41, e50, e51⟩ := idx_facts t
  have hN : t.val < 250 := by have h := t.isLt; have e : cfg1.N = 250 := N_1; omega
  funext j
  have hj0 : (j 0).val < 4800 := (j 0).isLt
  have hj1 : (j 1).val < 64 := (j 1).isLt
  have hr : t.val * 4800 + (j 0).val < 1200000 := by omega
  let r : Fin 1200000 := ⟨t.val * 4800 + (j 0).val, hr⟩
  have hemb : ((cfg1.win 5).blk t).view.emb j = ix2 r (j 1) := by
    funext a; apply Fin.ext
    match a with
    | ⟨0, _⟩ => show win1_5.index t (0 : Fin 2) * 4800 + 1 * (j 0).val = t.val * 4800 + (j 0).val; omega
    | ⟨1, _⟩ => show win1_5.index t (1 : Fin 2) * 64 + 1 * (j 1).val = (j 1).val; omega
  show _ = (stepDot (V c main_v20) (V c main_v27) (V c main_v10) (V c main_v29) (V c main_v32)) (((cfg1.win 5).blk t).view.emb j)
  rw [hemb]
  refine (congrArg _ (eq_ix2 j)).trans ?_
  exact step1_block (iblk1 V c 0 t) (iblk1 V c 1 t) (iblk1 V c 2 t) (iblk1 V c 3 t) (iblk1 V c 4 t)
    (V c main_v20) (V c main_v27) (V c main_v10) (V c main_v29) (V c main_v32) (j 0) (j 1) r
    (fun k => by
      show V c main_v20 (((cfg1.win 0).blk t).view.emb (ix2 (j 0) k)) = V c main_v20 (ix2 r k)
      refine congrArg _ (funext fun a => Fin.ext ?_)
      match a with
      | ⟨0, _⟩ => show win1_0.index t (0 : Fin 2) * 4800 + 1 * (j 0).val = t.val * 4800 + (j 0).val; omega
      | ⟨1, _⟩ => show win1_0.index t (1 : Fin 2) * 64 + 1 * k.val = k.val; omega)
    (fun k => by
      show V c main_v27 (((cfg1.win 1).blk t).view.emb (ix2 (j 0) k)) = V c main_v27 (ix2 r k)
      refine congrArg _ (funext fun a => Fin.ext ?_)
      match a with
      | ⟨0, _⟩ => show win1_1.index t (0 : Fin 2) * 4800 + 1 * (j 0).val = t.val * 4800 + (j 0).val; omega
      | ⟨1, _⟩ => show win1_1.index t (1 : Fin 2) * 64 + 1 * k.val = k.val; omega)
    (by
      show V c main_v10 (((cfg1.win 2).blk t).view.emb (ix2 (j 0) (j 1))) = V c main_v10 (ix2 r (j 1))
      refine congrArg _ (funext fun a => Fin.ext ?_)
      match a with
      | ⟨0, _⟩ => show win1_2.index t (0 : Fin 2) * 4800 + 1 * (j 0).val = t.val * 4800 + (j 0).val; omega
      | ⟨1, _⟩ => show win1_2.index t (1 : Fin 2) * 64 + 1 * (j 1).val = (j 1).val; omega)
    (fun k => by
      show V c main_v29 (((cfg1.win 3).blk t).view.emb (ix2 k (j 1))) = V c main_v29 (ix2 k (j 1))
      refine congrArg _ (funext fun a => Fin.ext ?_)
      match a with
      | ⟨0, _⟩ => show win1_3.index t (0 : Fin 2) * 64 + 1 * k.val = k.val; omega
      | ⟨1, _⟩ => show win1_3.index t (1 : Fin 2) * 64 + 1 * (j 1).val = (j 1).val; omega)
    (by
      show V c main_v32 (((cfg1.win 4).blk t).view.emb (ix2 (0 : Fin 1) (j 1))) = V c main_v32 (ix2 (0 : Fin 1) (j 1))
      refine congrArg _ (funext fun a => Fin.ext ?_)
      match a with
      | ⟨0, _⟩ => show win1_4.index t (0 : Fin 2) * 1 + 1 * 0 = 0; omega
      | ⟨1, _⟩ => show win1_4.index t (1 : Fin 2) * 64 + 1 * (j 1).val = (j 1).val; omega)

/-- An index of the array is in point `t`'s block iff each coordinate is in the block's range on its axis. -/
theorem mem_blk (t : Fin cfg1.N) (i : S1200000x64.Idx) :
    i ∈ ((cfg1.win 5).blk t).view.set ↔ ∀ a : Fin 2, win1_5.index t a * S4800x64.size a ≤ (i a).val ∧ (i a).val < win1_5.index t a * S4800x64.size a + S4800x64.size a := by
  show i ∈ ((View.whole main_v33).slice (win1_5.rect t)).set ↔ _
  rw [View.set_slice_whole, Rect.mem_set_unit]
  exact Iff.rfl

/-- The result array after the launch: the dense map of the operand arrays as the launch finds them. -/
theorem final (c : Dev nD) : (dat1 V c).arrAt 5 cfg1.N = stepDot (V c main_v20) (V c main_v27) (V c main_v10) (V c main_v29) (V c main_v32) :=
  (dat1 V c).arrAt_eq_of_cover 5 _ (fun t _ => flushed_eq V c t) fun i => by
    have hi0 : (i 0).val < 1200000 := (i 0).isLt
    have hi1 : (i 1).val < 64 := (i 1).isLt
    have hq : (i 0).val / 4800 < cfg1.N := by have e : cfg1.N = 250 := N_1; omega
    refine ⟨⟨(i 0).val / 4800, hq⟩, flush1_5 _, ?_⟩
    rw [mem_blk]
    obtain ⟨e00, e01, e10, e11, e20, e21, e30, e31, e40, e41, e50, e51⟩ := idx_facts ⟨(i 0).val / 4800, hq⟩
    intro a
    match a with
    | ⟨0, _⟩ =>
      show win1_5.index ⟨(i 0).val / 4800, hq⟩ (0 : Fin 2) * 4800 ≤ (i 0).val ∧ (i 0).val < win1_5.index ⟨(i 0).val / 4800, hq⟩ (0 : Fin 2) * 4800 + 4800
      rw [e50]; show (i 0).val / 4800 * 4800 ≤ (i 0).val ∧ (i 0).val < (i 0).val / 4800 * 4800 + 4800; omega
    | ⟨1, _⟩ =>
      show win1_5.index ⟨(i 0).val / 4800, hq⟩ (1 : Fin 2) * 64 ≤ (i 1).val ∧ (i 1).val < win1_5.index ⟨(i 0).val / 4800, hq⟩ (1 : Fin 2) * 64 + 64
      rw [e51]; omega

end Cert.KernelIdeal.Reg1

end
-- ==== Proof.Reg2.lean ====
/-
  Launch 2 as one function of whole arrays.  Point `t` of its grid works on rows 4800·t … 4800·t + 4799: it
  fetches those rows of the row-indexed operands and the whole of the two small ones, and writes back those rows of
  the result.  The body's value on the block is the dense map of the fetched blocks, which reads only the block's
  own rows, so what point `t` writes back is rows 4800·t … of the dense map of the WHOLE operand arrays as the
  launch finds them; the 250 blocks tile the 1200000 rows, so the result array ends at that map.
-/
import proofs.«131021_j16913581211836_1_alg».proof.Proof.Gen.KernelIdeal.Frame
import proofs.«131021_j16913581211836_1_alg».proof.Proof.Body

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.MsgPass

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-indexed windows sit at block row `t`, the small ones at the
    origin. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- What point `t` writes back is its block of rows of the dense map of the whole arrays. -/
theorem flushed_eq (c : Dev nD) (t : Fin cfg2.N) :
    (dat2 V c).flushed 5 t = ((cfg2.win 5).blk t).view.read (Elt Ideal)
      (stepDot (V c main_v43) (V c main_v50) (V c main_v10) (V c main_v52) (V c main_v55)) := by
  show (cfg2.win 5).cut (grid2.coords t) ((dat2 V c).after 5 t) = _
  rw [after2_5]
  unfold out2_5
  rw [View.canon_unit_zero origin]
  simp only [View.ld_unit_zero (S := S4800x64) origin, View.ld_unit_zero (S := S64x64) origin, View.ld_unit_zero (S := S1x64) origin]
  obtain ⟨e00, e01, e10, e11, e20, e21, e30, e31, e40, e41, e50, e51⟩ := idx_facts t
  have hN : t.val < 250 := by have h := t.isLt; have e : cfg2.N = 250 := N_2; omega
  funext j
  have hj0 : (j 0).val < 4800 := (j 0).isLt
  have hj1 : (j 1).val < 64 := (j 1).isLt
  have hr : t.val * 4800 + (j 0).val < 1200000 := by omega
  let r : Fin 1200000 := ⟨t.val * 4800 + (j 0).val, hr⟩
  have hemb : ((cfg2.win 5).blk t).view.emb j = ix2 r (j 1) := by
    funext a; apply Fin.ext
    match a with
    | ⟨0, _⟩ => show win2_5.index t (0 : Fin 2) * 4800 + 1 * (j 0).val = t.val * 4800 + (j 0).val; omega
    | ⟨1, _⟩ => show win2_5.index t (1 : Fin 2) * 64 + 1 * (j 1).val = (j 1).val; omega
  show _ = (stepDot (V c main_v43) (V c main_v50) (V c main_v10) (V c main_v52) (V c main_v55)) (((cfg2.win 5).blk t).view.emb j)
  rw [hemb]
  refine (congrArg _ (eq_ix2 j)).trans ?_
  exact step2_block (iblk2 V c 0 t) (iblk2 V c 1 t) (iblk2 V c 2 t) (iblk2 V c 3 t) (iblk2 V c 4 t)
    (V c main_v43) (V c main_v50) (V c main_v10) (V c main_v52) (V c main_v55) (j 0) (j 1) r
    (fun k => by
      show V c main_v43 (((cfg2.win 0).blk t).view.emb (ix2 (j 0) k)) = V c main_v43 (ix2 r k)
      refine congrArg _ (funext fun a => Fin.ext ?_)
      match a with
      | ⟨0, _⟩ => show win2_0.index t (0 : Fin 2) * 4800 + 1 * (j 0).val = t.val * 4800 + (j 0).val; omega
      | ⟨1, _⟩ => show win2_0.index t (1 : Fin 2) * 64 + 1 * k.val = k.val; omega)
    (fun k => by
      show V c main_v50 (((cfg2.win 1).blk t).view.emb (ix2 (j 0) k)) = V c main_v50 (ix2 r k)
      refine congrArg _ (funext fun a => Fin.ext ?_)
      match a with
      | ⟨0, _⟩ => show win2_1.index t (0 : Fin 2) * 4800 + 1 * (j 0).val = t.val * 4800 + (j 0).val; omega
      | ⟨1, _⟩ => show win2_1.index t (1 : Fin 2) * 64 + 1 * k.val = k.val; omega)
    (by
      show V c main_v10 (((cfg2.win 2).blk t).view.emb (ix2 (j 0) (j 1))) = V c main_v10 (ix2 r (j 1))
      refine congrArg _ (funext fun a => Fin.ext ?_)
      match a with
      | ⟨0, _⟩ => show win2_2.index t (0 : Fin 2) * 4800 + 1 * (j 0).val = t.val * 4800 + (j 0).val; omega
      | ⟨1, _⟩ => show win2_2.index t (1 : Fin 2) * 64 + 1 * (j 1).val = (j 1).val; omega)
    (fun k => by
      show V c main_v52 (((cfg2.win 3).blk t).view.emb (ix2 k (j 1))) = V c main_v52 (ix2 k (j 1))
      refine congrArg _ (funext fun a => Fin.ext ?_)
      match a with
      | ⟨0, _⟩ => show win2_3.index t (0 : Fin 2) * 64 + 1 * k.val = k.val; omega
      | ⟨1, _⟩ => show win2_3.index t (1 : Fin 2) * 64 + 1 * (j 1).val = (j 1).val; omega)
    (by
      show V c main_v55 (((cfg2.win 4).blk t).view.emb (ix2 (0 : Fin 1) (j 1))) = V c main_v55 (ix2 (0 : Fin 1) (j 1))
      refine congrArg _ (funext fun a => Fin.ext ?_)
      match a with
      | ⟨0, _⟩ => show win2_4.index t (0 : Fin 2) * 1 + 1 * 0 = 0; omega
      | ⟨1, _⟩ => show win2_4.index t (1 : Fin 2) * 64 + 1 * (j 1).val = (j 1).val; omega)

/-- An index of the array is in point `t`'s block iff each coordinate is in the block's range on its axis. -/
theorem mem_blk (t : Fin cfg2.N) (i : S1200000x64.Idx) :
    i ∈ ((cfg2.win 5).blk t).view.set ↔ ∀ a : Fin 2, win2_5.index t a * S4800x64.size a ≤ (i a).val ∧ (i a).val < win2_5.index t a * S4800x64.size a + S4800x64.size a := by
  show i ∈ ((View.whole main_v56).slice (win2_5.rect t)).set ↔ _
  rw [View.set_slice_whole, Rect.mem_set_unit]
  exact Iff.rfl

/-- The result array after the launch: the dense map of the operand arrays as the launch finds them. -/
theorem final (c : Dev nD) : (dat2 V c).arrAt 5 cfg2.N = stepDot (V c main_v43) (V c main_v50) (V c main_v10) (V c main_v52) (V c main_v55) :=
  (dat2 V c).arrAt_eq_of_cover 5 _ (fun t _ => flushed_eq V c t) fun i => by
    have hi0 : (i 0).val < 1200000 := (i 0).isLt
    have hi1 : (i 1).val < 64 := (i 1).isLt
    have hq : (i 0).val / 4800 < cfg2.N := by have e : cfg2.N = 250 := N_2; omega
    refine ⟨⟨(i 0).val / 4800, hq⟩, flush2_5 _, ?_⟩
    rw [mem_blk]
    obtain ⟨e00, e01, e10, e11, e20, e21, e30, e31, e40, e41, e50, e51⟩ := idx_facts ⟨(i 0).val / 4800, hq⟩
    intro a
    match a with
    | ⟨0, _⟩ =>
      show win2_5.index ⟨(i 0).val / 4800, hq⟩ (0 : Fin 2) * 4800 ≤ (i 0).val ∧ (i 0).val < win2_5.index ⟨(i 0).val / 4800, hq⟩ (0 : Fin 2) * 4800 + 4800
      rw [e50]; show (i 0).val / 4800 * 4800 ≤ (i 0).val ∧ (i 0).val < (i 0).val / 4800 * 4800 + 4800; omega
    | ⟨1, _⟩ =>
      show win2_5.index ⟨(i 0).val / 4800, hq⟩ (1 : Fin 2) * 64 ≤ (i 1).val ∧ (i 1).val < win2_5.index ⟨(i 0).val / 4800, hq⟩ (1 : Fin 2) * 64 + 64
      rw [e51]; omega

end Cert.KernelIdeal.Reg2

end
-- ==== Proof.Reg3.lean ====
/-
  Launch 3 as one function of whole arrays.  Point `t` of its grid works on rows 4800·t … 4800·t + 4799: it
  fetches those rows of the row-indexed operands and the whole of the two small ones, and writes back those rows of
  the result.  The body's value on the block is the dense map of the fetched blocks, which reads only the block's
  own rows, so what point `t` writes back is rows 4800·t … of the dense map of the WHOLE operand arrays as the
  launch finds them; the 250 blocks tile the 1200000 rows, so the result array ends at that map.
-/
import proofs.«131021_j16913581211836_1_alg».proof.Proof.Gen.KernelIdeal.Frame
import proofs.«131021_j16913581211836_1_alg».proof.Proof.Body

set_option maxRecDepth 16384

noncomputable section

namespace Cert.KernelIdeal.Reg3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.MsgPass

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-indexed windows sit at block row `t`, the small ones at the
    origin. -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- What point `t` writes back is its block of rows of the dense map of the whole arrays. -/
theorem flushed_eq (c : Dev nD) (t : Fin cfg3.N) :
    (dat3 V c).flushed 5 t = ((cfg3.win 5).blk t).view.read (Elt Ideal)
      (stepDot (V c main_v66) (V c main_v73) (V c main_v10) (V c main_v75) (V c main_v78)) := by
  show (cfg3.win 5).cut (grid3.coords t) ((dat3 V c).after 5 t) = _
  rw [after3_5]
  unfold out3_5
  rw [View.canon_unit_zero origin]
  simp only [View.ld_unit_zero (S := S4800x64) origin, View.ld_unit_zero (S := S64x64) origin, View.ld_unit_zero (S := S1x64) origin]
  obtain ⟨e00, e01, e10, e11, e20, e21, e30, e31, e40, e41, e50, e51⟩ := idx_facts t
  have hN : t.val < 250 := by have h := t.isLt; have e : cfg3.N = 250 := N_3; omega
  funext j
  have hj0 : (j 0).val < 4800 := (j 0).isLt
  have hj1 : (j 1).val < 64 := (j 1).isLt
  have hr : t.val * 4800 + (j 0).val < 1200000 := by omega
  let r : Fin 1200000 := ⟨t.val * 4800 + (j 0).val, hr⟩
  have hemb : ((cfg3.win 5).blk t).view.emb j = ix2 r (j 1) := by
    funext a; apply Fin.ext
    match a with
    | ⟨0, _⟩ => show win3_5.index t (0 : Fin 2) * 4800 + 1 * (j 0).val = t.val * 4800 + (j 0).val; omega
    | ⟨1, _⟩ => show win3_5.index t (1 : Fin 2) * 64 + 1 * (j 1).val = (j 1).val; omega
  show _ = (stepDot (V c main_v66) (V c main_v73) (V c main_v10) (V c main_v75) (V c main_v78)) (((cfg3.win 5).blk t).view.emb j)
  rw [hemb]
  refine (congrArg _ (eq_ix2 j)).trans ?_
  exact step3_block (iblk3 V c 0 t) (iblk3 V c 1 t) (iblk3 V c 2 t) (iblk3 V c 3 t) (iblk3 V c 4 t)
    (V c main_v66) (V c main_v73) (V c main_v10) (V c main_v75) (V c main_v78) (j 0) (j 1) r
    (fun k => by
      show V c main_v66 (((cfg3.win 0).blk t).view.emb (ix2 (j 0) k)) = V c main_v66 (ix2 r k)
      refine congrArg _ (funext fun a => Fin.ext ?_)
      match a with
      | ⟨0, _⟩ => show win3_0.index t (0 : Fin 2) * 4800 + 1 * (j 0).val = t.val * 4800 + (j 0).val; omega
      | ⟨1, _⟩ => show win3_0.index t (1 : Fin 2) * 64 + 1 * k.val = k.val; omega)
    (fun k => by
      show V c main_v73 (((cfg3.win 1).blk t).view.emb (ix2 (j 0) k)) = V c main_v73 (ix2 r k)
      refine congrArg _ (funext fun a => Fin.ext ?_)
      match a with
      | ⟨0, _⟩ => show win3_1.index t (0 : Fin 2) * 4800 + 1 * (j 0).val = t.val * 4800 + (j 0).val; omega
      | ⟨1, _⟩ => show win3_1.index t (1 : Fin 2) * 64 + 1 * k.val = k.val; omega)
    (by
      show V c main_v10 (((cfg3.win 2).blk t).view.emb (ix2 (j 0) (j 1))) = V c main_v10 (ix2 r (j 1))
      refine congrArg _ (funext fun a => Fin.ext ?_)
      match a with
      | ⟨0, _⟩ => show win3_2.index t (0 : Fin 2) * 4800 + 1 * (j 0).val = t.val * 4800 + (j 0).val; omega
      | ⟨1, _⟩ => show win3_2.index t (1 : Fin 2) * 64 + 1 * (j 1).val = (j 1).val; omega)
    (fun k => by
      show V c main_v75 (((cfg3.win 3).blk t).view.emb (ix2 k (j 1))) = V c main_v75 (ix2 k (j 1))
      refine congrArg _ (funext fun a => Fin.ext ?_)
      match a with
      | ⟨0, _⟩ => show win3_3.index t (0 : Fin 2) * 64 + 1 * k.val = k.val; omega
      | ⟨1, _⟩ => show win3_3.index t (1 : Fin 2) * 64 + 1 * (j 1).val = (j 1).val; omega)
    (by
      show V c main_v78 (((cfg3.win 4).blk t).view.emb (ix2 (0 : Fin 1) (j 1))) = V c main_v78 (ix2 (0 : Fin 1) (j 1))
      refine congrArg _ (funext fun a => Fin.ext ?_)
      match a with
      | ⟨0, _⟩ => show win3_4.index t (0 : Fin 2) * 1 + 1 * 0 = 0; omega
      | ⟨1, _⟩ => show win3_4.index t (1 : Fin 2) * 64 + 1 * (j 1).val = (j 1).val; omega)

/-- An index of the array is in point `t`'s block iff each coordinate is in the block's range on its axis. -/
theorem mem_blk (t : Fin cfg3.N) (i : S1200000x64.Idx) :
    i ∈ ((cfg3.win 5).blk t).view.set ↔ ∀ a : Fin 2, win3_5.index t a * S4800x64.size a ≤ (i a).val ∧ (i a).val < win3_5.index t a * S4800x64.size a + S4800x64.size a := by
  show i ∈ ((View.whole main_v79).slice (win3_5.rect t)).set ↔ _
  rw [View.set_slice_whole, Rect.mem_set_unit]
  exact Iff.rfl

/-- The result array after the launch: the dense map of the operand arrays as the launch finds them. -/
theorem final (c : Dev nD) : (dat3 V c).arrAt 5 cfg3.N = stepDot (V c main_v66) (V c main_v73) (V c main_v10) (V c main_v75) (V c main_v78) :=
  (dat3 V c).arrAt_eq_of_cover 5 _ (fun t _ => flushed_eq V c t) fun i => by
    have hi0 : (i 0).val < 1200000 := (i 0).isLt
    have hi1 : (i 1).val < 64 := (i 1).isLt
    have hq : (i 0).val / 4800 < cfg3.N := by have e : cfg3.N = 250 := N_3; omega
    refine ⟨⟨(i 0).val / 4800, hq⟩, flush3_5 _, ?_⟩
    rw [mem_blk]
    obtain ⟨e00, e01, e10, e11, e20, e21, e30, e31, e40, e41, e50, e51⟩ := idx_facts ⟨(i 0).val / 4800, hq⟩
    intro a
    match a with
    | ⟨0, _⟩ =>
      show win3_5.index ⟨(i 0).val / 4800, hq⟩ (0 : Fin 2) * 4800 ≤ (i 0).val ∧ (i 0).val < win3_5.index ⟨(i 0).val / 4800, hq⟩ (0 : Fin 2) * 4800 + 4800
      rw [e50]; show (i 0).val / 4800 * 4800 ≤ (i 0).val ∧ (i 0).val < (i 0).val / 4800 * 4800 + 4800; omega
    | ⟨1, _⟩ =>
      show win3_5.index ⟨(i 0).val / 4800, hq⟩ (1 : Fin 2) * 64 ≤ (i 1).val ∧ (i 1).val < win3_5.index ⟨(i 0).val / 4800, hq⟩ (1 : Fin 2) * 64 + 64
      rw [e51]; omega

end Cert.KernelIdeal.Reg3

end
-- ==== Proof.Reg4.lean ====
/-
  Launch 4 as one function of whole arrays.  Point `t` of its grid works on rows 4800·t … 4800·t + 4799: it
  fetches those rows of the row-indexed operands and the whole of the two small ones, and writes back those rows of
  the result.  The body's value on the block is the dense map of the fetched blocks, which reads only the block's
  own rows, so what point `t` writes back is rows 4800·t … of the dense map of the WHOLE operand arrays as the
  launch finds them; the 250 blocks tile the 1200000 rows, so the result array ends at that map.
-/
import proofs.«131021_j16913581211836_1_alg».proof.Proof.Gen.KernelIdeal.Frame
import proofs.«131021_j16913581211836_1_alg».proof.Proof.Body

set_option maxRecDepth 16384

noncomputable section

namespace Cert.KernelIdeal.Reg4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.MsgPass

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-indexed windows sit at block row `t`, the small ones at the
    origin. -/
theorem idx_facts : ∀ t : Fin cfg4.N,
    win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0 :=
  (by decide +kernel : ∀ t : Fin grid4.N, _)

/-- What point `t` writes back is its block of rows of the dense map of the whole arrays. -/
theorem flushed_eq (c : Dev nD) (t : Fin cfg4.N) :
    (dat4 V c).flushed 5 t = ((cfg4.win 5).blk t).view.read (Elt Ideal)
      (stepDot (V c main_v89) (V c main_v96) (V c main_v10) (V c main_v98) (V c main_v101)) := by
  show (cfg4.win 5).cut (grid4.coords t) ((dat4 V c).after 5 t) = _
  rw [after4_5]
  unfold out4_5
  rw [View.canon_unit_zero origin]
  simp only [View.ld_unit_zero (S := S4800x64) origin, View.ld_unit_zero (S := S64x64) origin, View.ld_unit_zero (S := S1x64) origin]
  obtain ⟨e00, e01, e10, e11, e20, e21, e30, e31, e40, e41, e50, e51⟩ := idx_facts t
  have hN : t.val < 250 := by have h := t.isLt; have e : cfg4.N = 250 := N_4; omega
  funext j
  have hj0 : (j 0).val < 4800 := (j 0).isLt
  have hj1 : (j 1).val < 64 := (j 1).isLt
  have hr : t.val * 4800 + (j 0).val < 1200000 := by omega
  let r : Fin 1200000 := ⟨t.val * 4800 + (j 0).val, hr⟩
  have hemb : ((cfg4.win 5).blk t).view.emb j = ix2 r (j 1) := by
    funext a; apply Fin.ext
    match a with
    | ⟨0, _⟩ => show win4_5.index t (0 : Fin 2) * 4800 + 1 * (j 0).val = t.val * 4800 + (j 0).val; omega
    | ⟨1, _⟩ => show win4_5.index t (1 : Fin 2) * 64 + 1 * (j 1).val = (j 1).val; omega
  show _ = (stepDot (V c main_v89) (V c main_v96) (V c main_v10) (V c main_v98) (V c main_v101)) (((cfg4.win 5).blk t).view.emb j)
  rw [hemb]
  refine (congrArg _ (eq_ix2 j)).trans ?_
  exact step4_block (iblk4 V c 0 t) (iblk4 V c 1 t) (iblk4 V c 2 t) (iblk4 V c 3 t) (iblk4 V c 4 t)
    (V c main_v89) (V c main_v96) (V c main_v10) (V c main_v98) (V c main_v101) (j 0) (j 1) r
    (fun k => by
      show V c main_v89 (((cfg4.win 0).blk t).view.emb (ix2 (j 0) k)) = V c main_v89 (ix2 r k)
      refine congrArg _ (funext fun a => Fin.ext ?_)
      match a with
      | ⟨0, _⟩ => show win4_0.index t (0 : Fin 2) * 4800 + 1 * (j 0).val = t.val * 4800 + (j 0).val; omega
      | ⟨1, _⟩ => show win4_0.index t (1 : Fin 2) * 64 + 1 * k.val = k.val; omega)
    (fun k => by
      show V c main_v96 (((cfg4.win 1).blk t).view.emb (ix2 (j 0) k)) = V c main_v96 (ix2 r k)
      refine congrArg _ (funext fun a => Fin.ext ?_)
      match a with
      | ⟨0, _⟩ => show win4_1.index t (0 : Fin 2) * 4800 + 1 * (j 0).val = t.val * 4800 + (j 0).val; omega
      | ⟨1, _⟩ => show win4_1.index t (1 : Fin 2) * 64 + 1 * k.val = k.val; omega)
    (by
      show V c main_v10 (((cfg4.win 2).blk t).view.emb (ix2 (j 0) (j 1))) = V c main_v10 (ix2 r (j 1))
      refine congrArg _ (funext fun a => Fin.ext ?_)
      match a with
      | ⟨0, _⟩ => show win4_2.index t (0 : Fin 2) * 4800 + 1 * (j 0).val = t.val * 4800 + (j 0).val; omega
      | ⟨1, _⟩ => show win4_2.index t (1 : Fin 2) * 64 + 1 * (j 1).val = (j 1).val; omega)
    (fun k => by
      show V c main_v98 (((cfg4.win 3).blk t).view.emb (ix2 k (j 1))) = V c main_v98 (ix2 k (j 1))
      refine congrArg _ (funext fun a => Fin.ext ?_)
      match a with
      | ⟨0, _⟩ => show win4_3.index t (0 : Fin 2) * 64 + 1 * k.val = k.val; omega
      | ⟨1, _⟩ => show win4_3.index t (1 : Fin 2) * 64 + 1 * (j 1).val = (j 1).val; omega)
    (by
      show V c main_v101 (((cfg4.win 4).blk t).view.emb (ix2 (0 : Fin 1) (j 1))) = V c main_v101 (ix2 (0 : Fin 1) (j 1))
      refine congrArg _ (funext fun a => Fin.ext ?_)
      match a with
      | ⟨0, _⟩ => show win4_4.index t (0 : Fin 2) * 1 + 1 * 0 = 0; omega
      | ⟨1, _⟩ => show win4_4.index t (1 : Fin 2) * 64 + 1 * (j 1).val = (j 1).val; omega)

/-- An index of the array is in point `t`'s block iff each coordinate is in the block's range on its axis. -/
theorem mem_blk (t : Fin cfg4.N) (i : S1200000x64.Idx) :
    i ∈ ((cfg4.win 5).blk t).view.set ↔ ∀ a : Fin 2, win4_5.index t a * S4800x64.size a ≤ (i a).val ∧ (i a).val < win4_5.index t a * S4800x64.size a + S4800x64.size a := by
  show i ∈ ((View.whole main_v102).slice (win4_5.rect t)).set ↔ _
  rw [View.set_slice_whole, Rect.mem_set_unit]
  exact Iff.rfl

/-- The result array after the launch: the dense map of the operand arrays as the launch finds them. -/
theorem final (c : Dev nD) : (dat4 V c).arrAt 5 cfg4.N = stepDot (V c main_v89) (V c main_v96) (V c main_v10) (V c main_v98) (V c main_v101) :=
  (dat4 V c).arrAt_eq_of_cover 5 _ (fun t _ => flushed_eq V c t) fun i => by
    have hi0 : (i 0).val < 1200000 := (i 0).isLt
    have hi1 : (i 1).val < 64 := (i 1).isLt
    have hq : (i 0).val / 4800 < cfg4.N := by have e : cfg4.N = 250 := N_4; omega
    refine ⟨⟨(i 0).val / 4800, hq⟩, flush4_5 _, ?_⟩
    rw [mem_blk]
    obtain ⟨e00, e01, e10, e11, e20, e21, e30, e31, e40, e41, e50, e51⟩ := idx_facts ⟨(i 0).val / 4800, hq⟩
    intro a
    match a with
    | ⟨0, _⟩ =>
      show win4_5.index ⟨(i 0).val / 4800, hq⟩ (0 : Fin 2) * 4800 ≤ (i 0).val ∧ (i 0).val < win4_5.index ⟨(i 0).val / 4800, hq⟩ (0 : Fin 2) * 4800 + 4800
      rw [e50]; show (i 0).val / 4800 * 4800 ≤ (i 0).val ∧ (i 0).val < (i 0).val / 4800 * 4800 + 4800; omega
    | ⟨1, _⟩ =>
      show win4_5.index ⟨(i 0).val / 4800, hq⟩ (1 : Fin 2) * 64 ≤ (i 1).val ∧ (i 1).val < win4_5.index ⟨(i 0).val / 4800, hq⟩ (1 : Fin 2) * 64 + 64
      rw [e51]; omega

end Cert.KernelIdeal.Reg4

end
-- ==== Proof.Reg5.lean ====
/-
  Launch 5 as one function of whole arrays.  Point `t` of its grid works on rows 5000·t … 5000·t + 4999: it
  fetches those rows of the row-indexed operands and the whole of the two small ones, and writes back those rows of
  the result.  The body's value on the block is the dense map of the fetched blocks, which reads only the block's
  own rows, so what point `t` writes back is rows 5000·t … of the dense map of the WHOLE operand arrays as the
  launch finds them; the 10 blocks tile the 50000 rows, so the result array ends at that map.
-/
import proofs.«131021_j16913581211836_1_alg».proof.Proof.Gen.KernelIdeal.Frame
import proofs.«131021_j16913581211836_1_alg».proof.Proof.Body

set_option maxRecDepth 16384

noncomputable section

namespace Cert.KernelIdeal.Reg5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.MsgPass

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-indexed windows sit at block row `t`, the small ones at the
    origin. -/
theorem idx_facts : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = t.val
    ∧ win5_5.index t (1 : Fin 2) = 0 :=
  (by decide +kernel : ∀ t : Fin grid5.N, _)

/-- What point `t` writes back is its block of rows of the dense map of the whole arrays. -/
theorem flushed_eq (c : Dev nD) (t : Fin cfg5.N) :
    (dat5 V c).flushed 5 t = ((cfg5.win 5).blk t).view.read (Elt Ideal)
      (twoDots (V c main_arg0) (V c main_v105) (V c main_v106) (V c main_v107) (V c main_v108)) := by
  show (cfg5.win 5).cut (grid5.coords t) ((dat5 V c).after 5 t) = _
  rw [after5_5]
  unfold out5_5
  rw [View.canon_unit_zero origin]
  simp only [View.ld_unit_zero (S := S5000x64) origin, View.ld_unit_zero (S := S64x64) origin, View.ld_unit_zero (S := S1x64) origin]
  obtain ⟨e00, e01, e10, e11, e20, e21, e30, e31, e40, e41, e50, e51⟩ := idx_facts t
  have hN : t.val < 10 := by have h := t.isLt; have e : cfg5.N = 10 := N_5; omega
  funext j
  have hj0 : (j 0).val < 5000 := (j 0).isLt
  have hj1 : (j 1).val < 64 := (j 1).isLt
  have hr : t.val * 5000 + (j 0).val < 50000 := by omega
  let r : Fin 50000 := ⟨t.val * 5000 + (j 0).val, hr⟩
  have hemb : ((cfg5.win 5).blk t).view.emb j = ix2 r (j 1) := by
    funext a; apply Fin.ext
    match a with
    | ⟨0, _⟩ => show win5_5.index t (0 : Fin 2) * 5000 + 1 * (j 0).val = t.val * 5000 + (j 0).val; omega
    | ⟨1, _⟩ => show win5_5.index t (1 : Fin 2) * 64 + 1 * (j 1).val = (j 1).val; omega
  show _ = (twoDots (V c main_arg0) (V c main_v105) (V c main_v106) (V c main_v107) (V c main_v108)) (((cfg5.win 5).blk t).view.emb j)
  rw [hemb]
  refine (congrArg _ (eq_ix2 j)).trans ?_
  exact two5_block (iblk5 V c 0 t) (iblk5 V c 1 t) (iblk5 V c 2 t) (iblk5 V c 3 t) (iblk5 V c 4 t)
    (V c main_arg0) (V c main_v105) (V c main_v106) (V c main_v107) (V c main_v108) (j 0) (j 1) r
    (fun k => by
      show V c main_arg0 (((cfg5.win 0).blk t).view.emb (ix2 (j 0) k)) = V c main_arg0 (ix2 r k)
      refine congrArg _ (funext fun a => Fin.ext ?_)
      match a with
      | ⟨0, _⟩ => show win5_0.index t (0 : Fin 2) * 5000 + 1 * (j 0).val = t.val * 5000 + (j 0).val; omega
      | ⟨1, _⟩ => show win5_0.index t (1 : Fin 2) * 64 + 1 * k.val = k.val; omega)
    (fun k => by
      show V c main_v105 (((cfg5.win 1).blk t).view.emb (ix2 (j 0) k)) = V c main_v105 (ix2 r k)
      refine congrArg _ (funext fun a => Fin.ext ?_)
      match a with
      | ⟨0, _⟩ => show win5_1.index t (0 : Fin 2) * 5000 + 1 * (j 0).val = t.val * 5000 + (j 0).val; omega
      | ⟨1, _⟩ => show win5_1.index t (1 : Fin 2) * 64 + 1 * k.val = k.val; omega)
    (fun k => by
      show V c main_v106 (((cfg5.win 2).blk t).view.emb (ix2 k (j 1))) = V c main_v106 (ix2 k (j 1))
      refine congrArg _ (funext fun a => Fin.ext ?_)
      match a with
      | ⟨0, _⟩ => show win5_2.index t (0 : Fin 2) * 64 + 1 * k.val = k.val; omega
      | ⟨1, _⟩ => show win5_2.index t (1 : Fin 2) * 64 + 1 * (j 1).val = (j 1).val; omega)
    (fun k => by
      show V c main_v107 (((cfg5.win 3).blk t).view.emb (ix2 k (j 1))) = V c main_v107 (ix2 k (j 1))
      refine congrArg _ (funext fun a => Fin.ext ?_)
      match a with
      | ⟨0, _⟩ => show win5_3.index t (0 : Fin 2) * 64 + 1 * k.val = k.val; omega
      | ⟨1, _⟩ => show win5_3.index t (1 : Fin 2) * 64 + 1 * (j 1).val = (j 1).val; omega)
    (by
      show V c main_v108 (((cfg5.win 4).blk t).view.emb (ix2 (0 : Fin 1) (j 1))) = V c main_v108 (ix2 (0 : Fin 1) (j 1))
      refine congrArg _ (funext fun a => Fin.ext ?_)
      match a with
      | ⟨0, _⟩ => show win5_4.index t (0 : Fin 2) * 1 + 1 * 0 = 0; omega
      | ⟨1, _⟩ => show win5_4.index t (1 : Fin 2) * 64 + 1 * (j 1).val = (j 1).val; omega)

/-- An index of the array is in point `t`'s block iff each coordinate is in the block's range on its axis. -/
theorem mem_blk (t : Fin cfg5.N) (i : S50000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v109).slice (win5_5.rect t)).set ↔ _
  rw [View.set_slice_whole, Rect.mem_set_unit]
  exact Iff.rfl

/-- The result array after the launch: the dense map of the operand arrays as the launch finds them. -/
theorem final (c : Dev nD) : (dat5 V c).arrAt 5 cfg5.N = twoDots (V c main_arg0) (V c main_v105) (V c main_v106) (V c main_v107) (V c main_v108) :=
  (dat5 V c).arrAt_eq_of_cover 5 _ (fun t _ => flushed_eq V c t) fun i => by
    have hi0 : (i 0).val < 50000 := (i 0).isLt
    have hi1 : (i 1).val < 64 := (i 1).isLt
    have hq : (i 0).val / 5000 < cfg5.N := by have e : cfg5.N = 10 := N_5; omega
    refine ⟨⟨(i 0).val / 5000, hq⟩, flush5_5 _, ?_⟩
    rw [mem_blk]
    obtain ⟨e00, e01, e10, e11, e20, e21, e30, e31, e40, e41, e50, e51⟩ := idx_facts ⟨(i 0).val / 5000, hq⟩
    intro a
    match a with
    | ⟨0, _⟩ =>
      show win5_5.index ⟨(i 0).val / 5000, hq⟩ (0 : Fin 2) * 5000 ≤ (i 0).val ∧ (i 0).val < win5_5.index ⟨(i 0).val / 5000, hq⟩ (0 : Fin 2) * 5000 + 5000
      rw [e50]; show (i 0).val / 5000 * 5000 ≤ (i 0).val ∧ (i 0).val < (i 0).val / 5000 * 5000 + 5000; omega
    | ⟨1, _⟩ =>
      show win5_5.index ⟨(i 0).val / 5000, hq⟩ (1 : Fin 2) * 64 ≤ (i 1).val ∧ (i 1).val < win5_5.index ⟨(i 0).val / 5000, hq⟩ (1 : Fin 2) * 64 + 64
      rw [e51]; omega

end Cert.KernelIdeal.Reg5

end
-- ==== Proof.Chain.lean ====
/-
  The kernel's two results as one function of its arguments.  Each launch finds, in its operand arrays, what the
  host operations before it computed from the previous launch's result and the arguments (read off the run's fold
  one stretch at a time), and leaves the dense map of them (one module per launch); composing the six stages gives
  the last edge state and the node read-out as `finalState` and `nodeOut` of the argument arrays.
-/
import proofs.«131021_j16913581211836_1_alg».proof.Proof.Kept
import proofs.«131021_j16913581211836_1_alg».proof.Proof.Glue
import proofs.«131021_j16913581211836_1_alg».proof.Proof.Reg0
import proofs.«131021_j16913581211836_1_alg».proof.Proof.Reg1
import proofs.«131021_j16913581211836_1_alg».proof.Proof.Reg2
import proofs.«131021_j16913581211836_1_alg».proof.Proof.Reg3
import proofs.«131021_j16913581211836_1_alg».proof.Proof.Reg4
import proofs.«131021_j16913581211836_1_alg».proof.Proof.Reg5
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.Glue Cert.KernelIdeal.Kept Cert.MsgPass

variable (m : (ℓ : Loc nD τ sig) → Buf (Elt Ideal) ℓ) (ρ : Dev nD → PrngReg)

/-! ## What the first launch finds -/
theorem in0_x (c : Dev nD) : V1 m ρ c main_v9 = rowsN (m ((c : Thread nD τ).loc main_arg0)) (m ((c : Thread nD τ).loc main_arg2)) := by
  show StableHlo.after hostOps0 (W0 m ρ c) (Proc.devRef .tc main_v9) = _
  after_results_simp
  rfl
theorem in0_e (c : Dev nD) : V1 m ρ c main_arg1 = (m ((c : Thread nD τ).loc main_arg1)) := a1_W1 m ρ c
theorem in0_wx (c : Dev nD) : V1 m ρ c main_v0 = topRows (m ((c : Thread nD τ).loc main_arg5)) := by
  show StableHlo.after hostOps0 (W0 m ρ c) (Proc.devRef .tc main_v0) = _
  after_results_simp
  rfl
theorem in0_we (c : Dev nD) : V1 m ρ c main_v1 = botRows (m ((c : Thread nD τ).loc main_arg5)) := by
  show StableHlo.after hostOps0 (W0 m ρ c) (Proc.devRef .tc main_v1) = _
  after_results_simp
  rfl
theorem in0_b (c : Dev nD) : V1 m ρ c main_v2 = biasRow (m ((c : Thread nD τ).loc main_arg6)) := by
  show StableHlo.after hostOps0 (W0 m ρ c) (Proc.devRef .tc main_v2) = _
  after_results_simp
  rfl

/-- The first edge state, as the first launch leaves it. -/
theorem state0 (c : Dev nD) : W2 m ρ c (Proc.devRef .tc main_v10) = firstState (m ((c : Thread nD τ).loc main_arg0)) (m ((c : Thread nD τ).loc main_arg1)) (m ((c : Thread nD τ).loc main_arg2)) (m ((c : Thread nD τ).loc main_arg5)) (m ((c : Thread nD τ).loc main_arg6)) := by
  refine (W2_arr m ρ c 5).trans ((Reg0.final (V1 m ρ) c).trans ?_)
  rw [in0_x, in0_e, in0_wx, in0_we, in0_b]
  rfl

/-! ## What step launch 1 finds -/
theorem in1_a (c : Dev nD) : V3 m ρ c main_v20 = rowsN (segSum (m ((c : Thread nD τ).loc main_arg3)) (W2 m ρ c (Proc.devRef .tc main_v10))) (m ((c : Thread nD τ).loc main_arg2)) := by
  show StableHlo.after hostOps1 (W2 m ρ c) (Proc.devRef .tc main_v20) = _
  after_results_simp
  rw [a2_W2 m ρ c, a3_W2 m ρ c]
  rfl
theorem in1_h (c : Dev nD) : V3 m ρ c main_v27 = rowsE (W2 m ρ c (Proc.devRef .tc main_v10)) (m ((c : Thread nD τ).loc main_arg4)) := by
  show StableHlo.after hostOps1 (W2 m ρ c) (Proc.devRef .tc main_v27) = _
  after_results_simp
  rw [a4_W2 m ρ c]
  rfl
theorem in1_h0 (c : Dev nD) : V3 m ρ c main_v10 = W2 m ρ c (Proc.devRef .tc main_v10) := h0_W3 m ρ c
theorem in1_w (c : Dev nD) : V3 m ρ c main_v29 = stepW0 (m ((c : Thread nD τ).loc main_arg7)) := by
  show StableHlo.after hostOps1 (W2 m ρ c) (Proc.devRef .tc main_v29) = _
  after_results_simp
  rw [a7_W2 m ρ c]
  rfl
theorem in1_b (c : Dev nD) : V3 m ρ c main_v32 = stepB0 (m ((c : Thread nD τ).loc main_arg8)) := by
  show StableHlo.after hostOps1 (W2 m ρ c) (Proc.devRef .tc main_v32) = _
  after_results_simp
  rw [a8_W2 m ρ c]
  rfl

/-- The state after step 0, from the state before it and the first state. -/
theorem state1 (c : Dev nD) : W4 m ρ c (Proc.devRef .tc main_v33)
    = stepState (stepW0 (m ((c : Thread nD τ).loc main_arg7))) (stepB0 (m ((c : Thread nD τ).loc main_arg8))) (m ((c : Thread nD τ).loc main_arg2)) (m ((c : Thread nD τ).loc main_arg3)) (m ((c : Thread nD τ).loc main_arg4)) (W2 m ρ c (Proc.devRef .tc main_v10)) (W2 m ρ c (Proc.devRef .tc main_v10)) := by
  refine (W4_arr m ρ c 5).trans ((Reg1.final (V3 m ρ) c).trans ?_)
  rw [in1_a, in1_h, in1_h0, in1_w, in1_b]
  rfl

/-! ## What step launch 2 finds -/
theorem in2_a (c : Dev nD) : V5 m ρ c main_v43 = rowsN (segSum (m ((c : Thread nD τ).loc main_arg3)) (W4 m ρ c (Proc.devRef .tc main_v33))) (m ((c : Thread nD τ).loc main_arg2)) := by
  show StableHlo.after hostOps2 (W4 m ρ c) (Proc.devRef .tc main_v43) = _
  after_results_simp
  rw [a2_W4 m ρ c, a3_W4 m ρ c]
  rfl
theorem in2_h (c : Dev nD) : V5 m ρ c main_v50 = rowsE (W4 m ρ c (Proc.devRef .tc main_v33)) (m ((c : Thread nD τ).loc main_arg4)) := by
  show StableHlo.after hostOps2 (W4 m ρ c) (Proc.devRef .tc main_v50) = _
  after_results_simp
  rw [a4_W4 m ρ c]
  rfl
theorem in2_h0 (c : Dev nD) : V5 m ρ c main_v10 = W2 m ρ c (Proc.devRef .tc main_v10) := h0_W5 m ρ c
theorem in2_w (c : Dev nD) : V5 m ρ c main_v52 = stepW1 (m ((c : Thread nD τ).loc main_arg7)) := by
  show StableHlo.after hostOps2 (W4 m ρ c) (Proc.devRef .tc main_v52) = _
  after_results_simp
  rw [a7_W4 m ρ c]
  rfl
theorem in2_b (c : Dev nD) : V5 m ρ c main_v55 = stepB1 (m ((c : Thread nD τ).loc main_arg8)) := by
  show StableHlo.after hostOps2 (W4 m ρ c) (Proc.devRef .tc main_v55) = _
  after_results_simp
  rw [a8_W4 m ρ c]
  rfl

/-- The state after step 1, from the state before it and the first state. -/
theorem state2 (c : Dev nD) : W6 m ρ c (Proc.devRef .tc main_v56)
    = stepState (stepW1 (m ((c : Thread nD τ).loc main_arg7))) (stepB1 (m ((c : Thread nD τ).loc main_arg8))) (m ((c : Thread nD τ).loc main_arg2)) (m ((c : Thread nD τ).loc main_arg3)) (m ((c : Thread nD τ).loc main_arg4)) (W2 m ρ c (Proc.devRef .tc main_v10)) (W4 m ρ c (Proc.devRef .tc main_v33)) := by
  refine (W6_arr m ρ c 5).trans ((Reg2.final (V5 m ρ) c).trans ?_)
  rw [in2_a, in2_h, in2_h0, in2_w, in2_b]
  rfl

/-! ## What step launch 3 finds -/
theorem in3_a (c : Dev nD) : V7 m ρ c main_v66 = rowsN (segSum (m ((c : Thread nD τ).loc main_arg3)) (W6 m ρ c (Proc.devRef .tc main_v56))) (m ((c : Thread nD τ).loc main_arg2)) := by
  show StableHlo.after hostOps3 (W6 m ρ c) (Proc.devRef .tc main_v66) = _
  after_results_simp
  rw [a2_W6 m ρ c, a3_W6 m ρ c]
  rfl
theorem in3_h (c : Dev nD) : V7 m ρ c main_v73 = rowsE (W6 m ρ c (Proc.devRef .tc main_v56)) (m ((c : Thread nD τ).loc main_arg4)) := by
  show StableHlo.after hostOps3 (W6 m ρ c) (Proc.devRef .tc main_v73) = _
  after_results_simp
  rw [a4_W6 m ρ c]
  rfl
theorem in3_h0 (c : Dev nD) : V7 m ρ c main_v10 = W2 m ρ c (Proc.devRef .tc main_v10) := h0_W7 m ρ c
theorem in3_w (c : Dev nD) : V7 m ρ c main_v75 = stepW2 (m ((c : Thread nD τ).loc main_arg7)) := by
  show StableHlo.after hostOps3 (W6 m ρ c) (Proc.devRef .tc main_v75) = _
  after_results_simp
  rw [a7_W6 m ρ c]
  rfl
theorem in3_b (c : Dev nD) : V7 m ρ c main_v78 = stepB2 (m ((c : Thread nD τ).loc main_arg8)) := by
  show StableHlo.after hostOps3 (W6 m ρ c) (Proc.devRef .tc main_v78) = _
  after_results_simp
  rw [a8_W6 m ρ c]
  rfl

/-- The state after step 2, from the state before it and the first state. -/
theorem state3 (c : Dev nD) : W8 m ρ c (Proc.devRef .tc main_v79)
    = stepState (stepW2 (m ((c : Thread nD τ).loc main_arg7))) (stepB2 (m ((c : Thread nD τ).loc main_arg8))) (m ((c : Thread nD τ).loc main_arg2)) (m ((c : Thread nD τ).loc main_arg3)) (m ((c : Thread nD τ).loc main_arg4)) (W2 m ρ c (Proc.devRef .tc main_v10)) (W6 m ρ c (Proc.devRef .tc main_v56)) := by
  refine (W8_arr m ρ c 5).trans ((Reg3.final (V7 m ρ) c).trans ?_)
  rw [in3_a, in3_h, in3_h0, in3_w, in3_b]
  rfl

/-! ## What step launch 4 finds -/
theorem in4_a (c : Dev nD) : V9 m ρ c main_v89 = rowsN (segSum (m ((c : Thread nD τ).loc main_arg3)) (W8 m ρ c (Proc.devRef .tc main_v79))) (m ((c : Thread nD τ).loc main_arg2)) := by
  show StableHlo.after hostOps4 (W8 m ρ c) (Proc.devRef .tc main_v89) = _
  after_results_simp
  rw [a2_W8 m ρ c, a3_W8 m ρ c]
  rfl
theorem in4_h (c : Dev nD) : V9 m ρ c main_v96 = rowsE (W8 m ρ c (Proc.devRef .tc main_v79)) (m ((c : Thread nD τ).loc main_arg4)) := by
  show StableHlo.after hostOps4 (W8 m ρ c) (Proc.devRef .tc main_v96) = _
  after_results_simp
  rw [a4_W8 m ρ c]
  rfl
theorem in4_h0 (c : Dev nD) : V9 m ρ c main_v10 = W2 m ρ c (Proc.devRef .tc main_v10) := h0_W9 m ρ c
theorem in4_w (c : Dev nD) : V9 m ρ c main_v98 = stepW3 (m ((c : Thread nD τ).loc main_arg7)) := by
  show StableHlo.after hostOps4 (W8 m ρ c) (Proc.devRef .tc main_v98) = _
  after_results_simp
  rw [a7_W8 m ρ c]
  rfl
theorem in4_b (c : Dev nD) : V9 m ρ c main_v101 = stepB3 (m ((c : Thread nD τ).loc main_arg8)) := by
  show StableHlo.after hostOps4 (W8 m ρ c) (Proc.devRef .tc main_v101) = _
  after_results_simp
  rw [a8_W8 m ρ c]
  rfl

/-- The state after step 3, from the state before it and the first state. -/
theorem state4 (c : Dev nD) : W10 m ρ c (Proc.devRef .tc main_v102)
    = stepState (stepW3 (m ((c : Thread nD τ).loc main_arg7))) (stepB3 (m ((c : Thread nD τ).loc main_arg8))) (m ((c : Thread nD τ).loc main_arg2)) (m ((c : Thread nD τ).loc main_arg3)) (m ((c : Thread nD τ).loc main_arg4)) (W2 m ρ c (Proc.devRef .tc main_v10)) (W8 m ρ c (Proc.devRef .tc main_v79)) := by
  refine (W10_arr m ρ c 5).trans ((Reg4.final (V9 m ρ) c).trans ?_)
  rw [in4_a, in4_h, in4_h0, in4_w, in4_b]
  rfl

/-! ## What the read-out launch finds -/
theorem in5_x (c : Dev nD) : V11 m ρ c main_arg0 = (m ((c : Thread nD τ).loc main_arg0)) := a0_W11 m ρ c
theorem in5_s (c : Dev nD) : V11 m ρ c main_v105 = segSum (m ((c : Thread nD τ).loc main_arg3)) (W10 m ρ c (Proc.devRef .tc main_v102)) := by
  show StableHlo.after hostOps5 (W10 m ρ c) (Proc.devRef .tc main_v105) = _
  after_results_simp
  rw [a3_W10 m ρ c]
  rfl
theorem in5_wx (c : Dev nD) : V11 m ρ c main_v106 = topRows (m ((c : Thread nD τ).loc main_arg9)) := by
  show StableHlo.after hostOps5 (W10 m ρ c) (Proc.devRef .tc main_v106) = _
  after_results_simp
  rw [a9_W10 m ρ c]
  rfl
theorem in5_we (c : Dev nD) : V11 m ρ c main_v107 = botRows (m ((c : Thread nD τ).loc main_arg9)) := by
  show StableHlo.after hostOps5 (W10 m ρ c) (Proc.devRef .tc main_v107) = _
  after_results_simp
  rw [a9_W10 m ρ c]
  rfl
theorem in5_b (c : Dev nD) : V11 m ρ c main_v108 = biasRow (m ((c : Thread nD τ).loc main_arg10)) := by
  show StableHlo.after hostOps5 (W10 m ρ c) (Proc.devRef .tc main_v108) = _
  after_results_simp
  rw [a10_W10 m ρ c]
  rfl

/-- The node read-out, from the last edge state. -/
theorem state5 (c : Dev nD) : W12 m ρ c (Proc.devRef .tc main_v109)
    = readOut (m ((c : Thread nD τ).loc main_arg0)) (m ((c : Thread nD τ).loc main_arg3)) (m ((c : Thread nD τ).loc main_arg9)) (m ((c : Thread nD τ).loc main_arg10)) (W10 m ρ c (Proc.devRef .tc main_v102)) := by
  refine (W12_arr m ρ c 5).trans ((Reg5.final (V11 m ρ) c).trans ?_)
  rw [in5_x, in5_s, in5_wx, in5_we, in5_b]
  rfl

/-! ## The two results -/

/-- The last edge state is `finalState` of the arguments. -/
theorem last_eq (c : Dev nD) : W12 m ρ c (Proc.devRef .tc main_v102)
    = finalState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [last_W12, state4, state3, state2, state1, state0]
  rfl

/-- The node read-out is `nodeOut` of the arguments. -/
theorem out_eq (c : Dev nD) : W12 m ρ c (Proc.devRef .tc main_v109)
    = nodeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [state5, state4, state3, state2, state1, state0]
  rfl

end Cert.KernelIdeal.Chain

end
-- ==== Proof.RefSide.lean ====
/-
  The reference as the same function of its arguments.  Its first edge state multiplies the 128-wide join of the
  looked-up node rows and the edge features by the whole 128×64 weight: a sum over 128 positions is the sum over
  the first 64 plus the sum over the last 64 (addition on the extended reals is commutative and associative, which
  is all this uses), the first 64 columns of the join are the node rows and the last 64 the edge features, and
  the weight's rows split the same way — so it is the two 64-term products the kernel adds.  Each step and the
  read-out are read the same way, one operation at a time; the bias vector broadcast over the rows is the bias
  row the kernel broadcasts.
-/
import proofs.«131021_j16913581211836_1_alg».proof.Proof.Gen.ReferenceIdeal.Read
import proofs.«131021_j16913581211836_1_alg».proof.Proof.Glue
import Idealize.ShloMosaic.Lib.ValueLayout

set_option maxRecDepth 16384

noncomputable section

namespace Cert.ReferenceIdeal.Bridge

open Idealize.ShloMosaic Idealize.ShloMosaic.TcCoe Idealize.ShloMosaic.ValueIdx Cert.ReferenceIdeal Cert.ReferenceIdeal.Read
open Cert.KernelIdeal.Glue (rowsN rowsE segSum topRows botRows biasRow stepW0 stepV0 stepB0 stepW1 stepV1 stepB1 stepW2 stepV2 stepB2 stepW3 stepV3 stepB3 firstState stepState readOut finalState nodeOut)

/-- A sum over 128 positions is the sum over the first 64 plus the sum over the last 64. -/
theorem sum_128 {M : Type*} [AddCommMonoid M] (f : Fin 128 → M) :
    ∑ k, f k = ∑ k : Fin 64, f ⟨k.val, by omega⟩ + ∑ k : Fin 64, f ⟨64 + k.val, by omega⟩ :=
  Fin.sum_univ_add (a := 64) (b := 64) (f : Fin (64 + 64) → M)

/-- The first 64 columns of two 64-column arrays joined side by side are the left array. -/
theorem cat_left {α : Type} {R : Nat} (x e : (⟨2, ![R, 64]⟩ : Shape).Idx → α)
    (h : Shape.Concatenates (([⟨⟨2, ![R, 64]⟩, x⟩, ⟨⟨2, ![R, 64]⟩, e⟩] : List ((s : Shape) × (s.Idx → α))).map (·.1)) ⟨2, ![R, 128]⟩ 1)
    (r : Fin R) (k : Fin 64) (k' : Fin 128) (hk : k'.val = k.val) :
    concatenate ⟨2, ![R, 128]⟩ 1 [⟨⟨2, ![R, 64]⟩, x⟩, ⟨⟨2, ![R, 64]⟩, e⟩] h (ix2 r k') = x (ix2 r k) :=
  concatenate_apply_piece 1 _ h (ix2 r k') 0 (by show 0 < 2; omega) ⟨2, ![R, 64]⟩ x rfl rfl 0 rfl (ix2 r k)
    (fun b hb => by
      match b with
      | ⟨0, _⟩ => rfl
      | ⟨1, _⟩ => exact absurd rfl hb)
    (by show 0 + k.val = k'.val; omega)

/-- The last 64 columns are the right array. -/
theorem cat_right {α : Type} {R : Nat} (x e : (⟨2, ![R, 64]⟩ : Shape).Idx → α)
    (h : Shape.Concatenates (([⟨⟨2, ![R, 64]⟩, x⟩, ⟨⟨2, ![R, 64]⟩, e⟩] : List ((s : Shape) × (s.Idx → α))).map (·.1)) ⟨2, ![R, 128]⟩ 1)
    (r : Fin R) (k : Fin 64) (k' : Fin 128) (hk : k'.val = 64 + k.val) :
    concatenate ⟨2, ![R, 128]⟩ 1 [⟨⟨2, ![R, 64]⟩, x⟩, ⟨⟨2, ![R, 64]⟩, e⟩] h (ix2 r k') = e (ix2 r k) :=
  concatenate_apply_piece 1 _ h (ix2 r k') 1 (by show 1 < 2; omega) ⟨2, ![R, 64]⟩ e rfl rfl 64 rfl (ix2 r k)
    (fun b hb => by
      match b with
      | ⟨0, _⟩ => rfl
      | ⟨1, _⟩ => exact absurd rfl hb)
    (by show 64 + k.val = k'.val; omega)

/-- The step map at row `r`, column `q`. -/
theorem stepDot_apply {R : Nat} (a h h0 : FVec Ideal ⟨2, ![R, 64]⟩ .f32) (w : FVec Ideal ⟨2, ![64, 64]⟩ .f32)
    (b : FVec Ideal ⟨2, ![1, 64]⟩ .f32) (r : Fin R) (q : Fin 64) :
    Cert.MsgPass.stepDot a h h0 w b (ix2 r q)
      = max ((h0 (ix2 r q) + ∑ k : Fin 64, (a (ix2 r k) - h (ix2 r k)) * w (ix2 k q))
          + b (ix2 (0 : Fin 1) q)) (Ideal.ofBits .f32 0x00000000#32) := rfl

variable (x0 : (⟨S50000x64, .f32⟩ : BufTy).Contents (Elt Ideal)) (x1 : (⟨S1200000x64, .f32⟩ : BufTy).Contents (Elt Ideal)) (x2 x3 x4 : (⟨S1200000, .i32⟩ : BufTy).Contents (Elt Ideal))
  (x5 : (⟨S128x64, .f32⟩ : BufTy).Contents (Elt Ideal)) (x6 : (⟨S64, .f32⟩ : BufTy).Contents (Elt Ideal)) (x7 : (⟨S4x64x64, .f32⟩ : BufTy).Contents (Elt Ideal)) (x8 : (⟨S4x64, .f32⟩ : BufTy).Contents (Elt Ideal))
  (x9 : (⟨S128x64, .f32⟩ : BufTy).Contents (Elt Ideal)) (x10 : (⟨S64, .f32⟩ : BufTy).Contents (Elt Ideal))

/-! ## The first edge state -/

theorem look_first : val_main_v6 (F := Ideal) x0 x2 = rowsN x0 x2 := rfl

theorem ref_first : val_main_v12 (F := Ideal) x0 x1 x2 x5 x6 = firstState x0 x1 x2 x5 x6 := by
  funext i
  obtain ⟨r, q, rfl⟩ : ∃ (r : Fin 1200000) (q : Fin 64), i = ix2 r q := ⟨i 0, i 1, eq_ix2 i⟩
  rw [val_main_v12_apply, val_main_v11_apply, val_main_v8_apply, val_main_v10_apply, val_main_v9_apply, val_main_call0_v0_apply, val_main_call0_cst_apply, sum_128]
  have hl : ∀ k : Fin 64, (val_main_v7 (F := Ideal) x0 x1 x2) (lidx_main_v8 (ix2 r q) ⟨k.val, by omega⟩) = (val_main_v6 (F := Ideal) x0 x2) (ix2 r k) := fun k => by
    rw [show lidx_main_v8 (ix2 r q) ⟨k.val, by omega⟩ = ix2 r (⟨k.val, by omega⟩ : Fin 128) from funext fun a => Fin.ext (by match a with | ⟨0, _⟩ => rfl | ⟨1, _⟩ => rfl)]
    unfold val_main_v7
    exact cat_left _ _ _ r k _ rfl
  have hr : ∀ k : Fin 64, (val_main_v7 (F := Ideal) x0 x1 x2) (lidx_main_v8 (ix2 r q) ⟨64 + k.val, by omega⟩) = (x1) (ix2 r k) := fun k => by
    rw [show lidx_main_v8 (ix2 r q) ⟨64 + k.val, by omega⟩ = ix2 r (⟨64 + k.val, by omega⟩ : Fin 128) from funext fun a => Fin.ext (by match a with | ⟨0, _⟩ => rfl | ⟨1, _⟩ => rfl)]
    unfold val_main_v7
    exact cat_right _ _ _ r k _ rfl
  have wl : ∀ k : Fin 64, x5 (ridx_main_v8 (ix2 r q) ⟨k.val, by omega⟩) = topRows x5 (ix2 k q) := fun k => by
    rw [show ridx_main_v8 (ix2 r q) ⟨k.val, by omega⟩ = ix2 (⟨k.val, by omega⟩ : Fin 128) q from funext fun a => Fin.ext (by match a with | ⟨0, _⟩ => rfl | ⟨1, _⟩ => rfl)]
    exact (slice2_axis0_apply 0 x5 _ k q ⟨k.val, by omega⟩ (by show k.val = 0 + k.val; omega)).symm
  have wr : ∀ k : Fin 64, x5 (ridx_main_v8 (ix2 r q) ⟨64 + k.val, by omega⟩) = botRows x5 (ix2 k q) := fun k => by
    rw [show ridx_main_v8 (ix2 r q) ⟨64 + k.val, by omega⟩ = ix2 (⟨64 + k.val, by omega⟩ : Fin 128) q from funext fun a => Fin.ext (by match a with | ⟨0, _⟩ => rfl | ⟨1, _⟩ => rfl)]
    exact (slice2_axis0_apply 64 x5 _ k q ⟨64 + k.val, by omega⟩ rfl).symm
  have hb : x6 (idx_main_v9 (idx_main_v10 (ix2 r q))) = biasRow x6 (ix2 (0 : Fin 1) q) := by
    rw [show idx_main_v9 (idx_main_v10 (ix2 r q)) = ix1 q from funext fun a => Fin.ext (by match a with | ⟨0, _⟩ => rfl)]
    exact (shapeCast_a_1a_apply x6 _ (0 : Fin 1) q).symm
  simp only [hl, hr, wl, wr, hb, look_first]
  rfl

/-! ## The four steps -/

theorem agg_0 : val_main_v22 (F := Ideal) x0 x1 x2 x3 x5 x6 = rowsN (segSum x3 (val_main_v12 (F := Ideal) x0 x1 x2 x5 x6)) x2 := rfl
theorem rev_0 : val_main_v29 (F := Ideal) x0 x1 x2 x4 x5 x6 = rowsE (val_main_v12 (F := Ideal) x0 x1 x2 x5 x6) x4 := rfl
theorem mat_0 : val_main_v32 (F := Ideal) x7 = stepW0 x7 := rfl
theorem bias_0 : val_main_v36 (F := Ideal) x8 = stepV0 x8 := rfl

theorem ref_step0 : val_main_v40 (F := Ideal) x0 x1 x2 x3 x4 x5 x6 x7 x8 = stepState (stepW0 x7) (stepB0 x8) x2 x3 x4 (val_main_v12 (F := Ideal) x0 x1 x2 x5 x6) (val_main_v12 (F := Ideal) x0 x1 x2 x5 x6) := by
  funext i
  obtain ⟨r, q, rfl⟩ : ∃ (r : Fin 1200000) (q : Fin 64), i = ix2 r q := ⟨i 0, i 1, eq_ix2 i⟩
  rw [val_main_v40_apply, val_main_v39_apply, val_main_v34_apply, val_main_v33_apply, val_main_v38_apply, val_main_v37_apply, val_main_call1_v0_apply, val_main_call1_cst_apply]
  have e1 : ∀ k : Fin 64, (val_main_v30 (F := Ideal) x0 x1 x2 x3 x4 x5 x6) (lidx_main_v33 (ix2 r q) k)
      = rowsN (segSum x3 (val_main_v12 (F := Ideal) x0 x1 x2 x5 x6)) x2 (ix2 r k) - rowsE (val_main_v12 (F := Ideal) x0 x1 x2 x5 x6) x4 (ix2 r k) := fun k => by
    rw [show lidx_main_v33 (ix2 r q) k = ix2 r k from funext fun a => Fin.ext (by match a with | ⟨0, _⟩ => rfl | ⟨1, _⟩ => rfl),
      val_main_v30, ValueIdx.subf_apply, agg_0, rev_0]
  have e2 : ∀ k : Fin 64, (val_main_v32 (F := Ideal) x7) (ridx_main_v33 (ix2 r q) k) = stepW0 x7 (ix2 k q) := fun k => by
    rw [show ridx_main_v33 (ix2 r q) k = ix2 k q from funext fun a => Fin.ext (by match a with | ⟨0, _⟩ => rfl | ⟨1, _⟩ => rfl), mat_0]
  have e3 : (val_main_v36 (F := Ideal) x8) (idx_main_v37 (idx_main_v38 (ix2 r q))) = stepB0 x8 (ix2 (0 : Fin 1) q) := by
    rw [show idx_main_v37 (idx_main_v38 (ix2 r q)) = ix1 q from funext fun a => Fin.ext (by match a with | ⟨0, _⟩ => rfl), bias_0]
    exact (shapeCast_a_1a_apply (stepV0 x8) _ (0 : Fin 1) q).symm
  simp only [e1, e2, e3]
  unfold stepState
  rw [stepDot_apply]
  rfl

theorem agg_1 : val_main_v50 (F := Ideal) x0 x1 x2 x3 x4 x5 x6 x7 x8 = rowsN (segSum x3 (val_main_v40 (F := Ideal) x0 x1 x2 x3 x4 x5 x6 x7 x8)) x2 := rfl
theorem rev_1 : val_main_v57 (F := Ideal) x0 x1 x2 x3 x4 x5 x6 x7 x8 = rowsE (val_main_v40 (F := Ideal) x0 x1 x2 x3 x4 x5 x6 x7 x8) x4 := rfl
theorem mat_1 : val_main_v60 (F := Ideal) x7 = stepW1 x7 := rfl
theorem bias_1 : val_main_v64 (F := Ideal) x8 = stepV1 x8 := rfl

theorem ref_step1 : val_main_v68 (F := Ideal) x0 x1 x2 x3 x4 x5 x6 x7 x8 = stepState (stepW1 x7) (stepB1 x8) x2 x3 x4 (val_main_v12 (F := Ideal) x0 x1 x2 x5 x6) (val_main_v40 (F := Ideal) x0 x1 x2 x3 x4 x5 x6 x7 x8) := by
  funext i
  obtain ⟨r, q, rfl⟩ : ∃ (r : Fin 1200000) (q : Fin 64), i = ix2 r q := ⟨i 0, i 1, eq_ix2 i⟩
  rw [val_main_v68_apply, val_main_v67_apply, val_main_v62_apply, val_main_v61_apply, val_main_v66_apply, val_main_v65_apply, val_main_call2_v0_apply, val_main_call2_cst_apply]
  have e1 : ∀ k : Fin 64, (val_main_v58 (F := Ideal) x0 x1 x2 x3 x4 x5 x6 x7 x8) (lidx_main_v61 (ix2 r q) k)
      = rowsN (segSum x3 (val_main_v40 (F := Ideal) x0 x1 x2 x3 x4 x5 x6 x7 x8)) x2 (ix2 r k) - rowsE (val_main_v40 (F := Ideal) x0 x1 x2 x3 x4 x5 x6 x7 x8) x4 (ix2 r k) := fun k => by
    rw [show lidx_main_v61 (ix2 r q) k = ix2 r k from funext fun a => Fin.ext (by match a with | ⟨0, _⟩ => rfl | ⟨1, _⟩ => rfl),
      val_main_v58, ValueIdx.subf_apply, agg_1, rev_1]
  have e2 : ∀ k : Fin 64, (val_main_v60 (F := Ideal) x7) (ridx_main_v61 (ix2 r q) k) = stepW1 x7 (ix2 k q) := fun k => by
    rw [show ridx_main_v61 (ix2 r q) k = ix2 k q from funext fun a => Fin.ext (by match a with | ⟨0, _⟩ => rfl | ⟨1, _⟩ => rfl), mat_1]
  have e3 : (val_main_v64 (F := Ideal) x8) (idx_main_v65 (idx_main_v66 (ix2 r q))) = stepB1 x8 (ix2 (0 : Fin 1) q) := by
    rw [show idx_main_v65 (idx_main_v66 (ix2 r q)) = ix1 q from funext fun a => Fin.ext (by match a with | ⟨0, _⟩ => rfl), bias_1]
    exact (shapeCast_a_1a_apply (stepV1 x8) _ (0 : Fin 1) q).symm
  simp only [e1, e2, e3]
  unfold stepState
  rw [stepDot_apply]
  rfl

theorem agg_2 : val_main_v78 (F := Ideal) x0 x1 x2 x3 x4 x5 x6 x7 x8 = rowsN (segSum x3 (val_main_v68 (F := Ideal) x0 x1 x2 x3 x4 x5 x6 x7 x8)) x2 := rfl
theorem rev_2 : val_main_v85 (F := Ideal) x0 x1 x2 x3 x4 x5 x6 x7 x8 = rowsE (val_main_v68 (F := Ideal) x0 x1 x2 x3 x4 x5 x6 x7 x8) x4 := rfl
theorem mat_2 : val_main_v88 (F := Ideal) x7 = stepW2 x7 := rfl
theorem bias_2 : val_main_v92 (F := Ideal) x8 = stepV2 x8 := rfl

theorem ref_step2 : val_main_v96 (F := Ideal) x0 x1 x2 x3 x4 x5 x6 x7 x8 = stepState (stepW2 x7) (stepB2 x8) x2 x3 x4 (val_main_v12 (F := Ideal) x0 x1 x2 x5 x6) (val_main_v68 (F := Ideal) x0 x1 x2 x3 x4 x5 x6 x7 x8) := by
  funext i
  obtain ⟨r, q, rfl⟩ : ∃ (r : Fin 1200000) (q : Fin 64), i = ix2 r q := ⟨i 0, i 1, eq_ix2 i⟩
  rw [val_main_v96_apply, val_main_v95_apply, val_main_v90_apply, val_main_v89_apply, val_main_v94_apply, val_main_v93_apply, val_main_call3_v0_apply, val_main_call3_cst_apply]
  have e1 : ∀ k : Fin 64, (val_main_v86 (F := Ideal) x0 x1 x2 x3 x4 x5 x6 x7 x8) (lidx_main_v89 (ix2 r q) k)
      = rowsN (segSum x3 (val_main_v68 (F := Ideal) x0 x1 x2 x3 x4 x5 x6 x7 x8)) x2 (ix2 r k) - rowsE (val_main_v68 (F := Ideal) x0 x1 x2 x3 x4 x5 x6 x7 x8) x4 (ix2 r k) := fun k => by
    rw [show lidx_main_v89 (ix2 r q) k = ix2 r k from funext fun a => Fin.ext (by match a with | ⟨0, _⟩ => rfl | ⟨1, _⟩ => rfl),
      val_main_v86, ValueIdx.subf_apply, agg_2, rev_2]
  have e2 : ∀ k : Fin 64, (val_main_v88 (F := Ideal) x7) (ridx_main_v89 (ix2 r q) k) = stepW2 x7 (ix2 k q) := fun k => by
    rw [show ridx_main_v89 (ix2 r q) k = ix2 k q from funext fun a => Fin.ext (by match a with | ⟨0, _⟩ => rfl | ⟨1, _⟩ => rfl), mat_2]
  have e3 : (val_main_v92 (F := Ideal) x8) (idx_main_v93 (idx_main_v94 (ix2 r q))) = stepB2 x8 (ix2 (0 : Fin 1) q) := by
    rw [show idx_main_v93 (idx_main_v94 (ix2 r q)) = ix1 q from funext fun a => Fin.ext (by match a with | ⟨0, _⟩ => rfl), bias_2]
    exact (shapeCast_a_1a_apply (stepV2 x8) _ (0 : Fin 1) q).symm
  simp only [e1, e2, e3]
  unfold stepState
  rw [stepDot_apply]
  rfl

theorem agg_3 : val_main_v106 (F := Ideal) x0 x1 x2 x3 x4 x5 x6 x7 x8 = rowsN (segSum x3 (val_main_v96 (F := Ideal) x0 x1 x2 x3 x4 x5 x6 x7 x8)) x2 := rfl
theorem rev_3 : val_main_v113 (F := Ideal) x0 x1 x2 x3 x4 x5 x6 x7 x8 = rowsE (val_main_v96 (F := Ideal) x0 x1 x2 x3 x4 x5 x6 x7 x8) x4 := rfl
theorem mat_3 : val_main_v116 (F := Ideal) x7 = stepW3 x7 := rfl
theorem bias_3 : val_main_v120 (F := Ideal) x8 = stepV3 x8 := rfl

theorem ref_step3 : val_main_v124 (F := Ideal) x0 x1 x2 x3 x4 x5 x6 x7 x8 = stepState (stepW3 x7) (stepB3 x8) x2 x3 x4 (val_main_v12 (F := Ideal) x0 x1 x2 x5 x6) (val_main_v96 (F := Ideal) x0 x1 x2 x3 x4 x5 x6 x7 x8) := by
  funext i
  obtain ⟨r, q, rfl⟩ : ∃ (r : Fin 1200000) (q : Fin 64), i = ix2 r q := ⟨i 0, i 1, eq_ix2 i⟩
  rw [val_main_v124_apply, val_main_v123_apply, val_main_v118_apply, val_main_v117_apply, val_main_v122_apply, val_main_v121_apply, val_main_call4_v0_apply, val_main_call4_cst_apply]
  have e1 : ∀ k : Fin 64, (val_main_v114 (F := Ideal) x0 x1 x2 x3 x4 x5 x6 x7 x8) (lidx_main_v117 (ix2 r q) k)
      = rowsN (segSum x3 (val_main_v96 (F := Ideal) x0 x1 x2 x3 x4 x5 x6 x7 x8)) x2 (ix2 r k) - rowsE (val_main_v96 (F := Ideal) x0 x1 x2 x3 x4 x5 x6 x7 x8) x4 (ix2 r k) := fun k => by
    rw [show lidx_main_v117 (ix2 r q) k = ix2 r k from funext fun a => Fin.ext (by match a with | ⟨0, _⟩ => rfl | ⟨1, _⟩ => rfl),
      val_main_v114, ValueIdx.subf_apply, agg_3, rev_3]
  have e2 : ∀ k : Fin 64, (val_main_v116 (F := Ideal) x7) (ridx_main_v117 (ix2 r q) k) = stepW3 x7 (ix2 k q) := fun k => by
    rw [show ridx_main_v117 (ix2 r q) k = ix2 k q from funext fun a => Fin.ext (by match a with | ⟨0, _⟩ => rfl | ⟨1, _⟩ => rfl), mat_3]
  have e3 : (val_main_v120 (F := Ideal) x8) (idx_main_v121 (idx_main_v122 (ix2 r q))) = stepB3 x8 (ix2 (0 : Fin 1) q) := by
    rw [show idx_main_v121 (idx_main_v122 (ix2 r q)) = ix1 q from funext fun a => Fin.ext (by match a with | ⟨0, _⟩ => rfl), bias_3]
    exact (shapeCast_a_1a_apply (stepV3 x8) _ (0 : Fin 1) q).symm
  simp only [e1, e2, e3]
  unfold stepState
  rw [stepDot_apply]
  rfl

/-- The reference's last edge state is `finalState` of its arguments. -/
theorem ref_last : val_main_v124 (F := Ideal) x0 x1 x2 x3 x4 x5 x6 x7 x8 = finalState x0 x1 x2 x3 x4 x5 x6 x7 x8 := by
  rw [ref_step3, ref_step2, ref_step1, ref_step0, ref_first]
  rfl

/-! ## The node read-out -/

theorem sum_last : val_main_v127 (F := Ideal) x0 x1 x2 x3 x4 x5 x6 x7 x8 = segSum x3 (val_main_v124 (F := Ideal) x0 x1 x2 x3 x4 x5 x6 x7 x8) := rfl

theorem ref_read : val_main_v133 (F := Ideal) x0 x1 x2 x3 x4 x5 x6 x7 x8 x9 x10 = readOut x0 x3 x9 x10 (val_main_v124 (F := Ideal) x0 x1 x2 x3 x4 x5 x6 x7 x8) := by
  funext i
  obtain ⟨r, q, rfl⟩ : ∃ (r : Fin 50000) (q : Fin 64), i = ix2 r q := ⟨i 0, i 1, eq_ix2 i⟩
  rw [val_main_v133_apply, val_main_v132_apply, val_main_v129_apply, val_main_v131_apply, val_main_v130_apply, val_main_call5_v0_apply, val_main_call5_cst_apply, sum_128]
  have hl : ∀ k : Fin 64, (val_main_v128 (F := Ideal) x0 x1 x2 x3 x4 x5 x6 x7 x8) (lidx_main_v129 (ix2 r q) ⟨k.val, by omega⟩) = (x0) (ix2 r k) := fun k => by
    rw [show lidx_main_v129 (ix2 r q) ⟨k.val, by omega⟩ = ix2 r (⟨k.val, by omega⟩ : Fin 128) from funext fun a => Fin.ext (by match a with | ⟨0, _⟩ => rfl | ⟨1, _⟩ => rfl)]
    unfold val_main_v128
    exact cat_left _ _ _ r k _ rfl
  have hr : ∀ k : Fin 64, (val_main_v128 (F := Ideal) x0 x1 x2 x3 x4 x5 x6 x7 x8) (lidx_main_v129 (ix2 r q) ⟨64 + k.val, by omega⟩) = (val_main_v127 (F := Ideal) x0 x1 x2 x3 x4 x5 x6 x7 x8) (ix2 r k) := fun k => by
    rw [show lidx_main_v129 (ix2 r q) ⟨64 + k.val, by omega⟩ = ix2 r (⟨64 + k.val, by omega⟩ : Fin 128) from funext fun a => Fin.ext (by match a with | ⟨0, _⟩ => rfl | ⟨1, _⟩ => rfl)]
    unfold val_main_v128
    exact cat_right _ _ _ r k _ rfl
  have wl : ∀ k : Fin 64, x9 (ridx_main_v129 (ix2 r q) ⟨k.val, by omega⟩) = topRows x9 (ix2 k q) := fun k => by
    rw [show ridx_main_v129 (ix2 r q) ⟨k.val, by omega⟩ = ix2 (⟨k.val, by omega⟩ : Fin 128) q from funext fun a => Fin.ext (by match a with | ⟨0, _⟩ => rfl | ⟨1, _⟩ => rfl)]
    exact (slice2_axis0_apply 0 x9 _ k q ⟨k.val, by omega⟩ (by show k.val = 0 + k.val; omega)).symm
  have wr : ∀ k : Fin 64, x9 (ridx_main_v129 (ix2 r q) ⟨64 + k.val, by omega⟩) = botRows x9 (ix2 k q) := fun k => by
    rw [show ridx_main_v129 (ix2 r q) ⟨64 + k.val, by omega⟩ = ix2 (⟨64 + k.val, by omega⟩ : Fin 128) q from funext fun a => Fin.ext (by match a with | ⟨0, _⟩ => rfl | ⟨1, _⟩ => rfl)]
    exact (slice2_axis0_apply 64 x9 _ k q ⟨64 + k.val, by omega⟩ rfl).symm
  have hb : x10 (idx_main_v130 (idx_main_v131 (ix2 r q))) = biasRow x10 (ix2 (0 : Fin 1) q) := by
    rw [show idx_main_v130 (idx_main_v131 (ix2 r q)) = ix1 q from funext fun a => Fin.ext (by match a with | ⟨0, _⟩ => rfl)]
    exact (shapeCast_a_1a_apply x10 _ (0 : Fin 1) q).symm
  simp only [hl, hr, wl, wr, hb, sum_last]
  rfl

/-- The reference's node read-out is `nodeOut` of its arguments. -/
theorem ref_out : val_main_v133 (F := Ideal) x0 x1 x2 x3 x4 x5 x6 x7 x8 x9 x10 = nodeOut x0 x1 x2 x3 x4 x5 x6 x7 x8 x9 x10 := by
  rw [ref_read, ref_last]
  rfl

end Cert.ReferenceIdeal.Bridge

end
-- ==== Proof.lean ====
/-
  Directed message passing over 1.2 million edges and 50 thousand nodes: six launches of dense maps among host
  look-ups and segment sums, against the plain array program.  On the extended reals the two compute the same
  function of the arguments: the launches' dense maps are the reference's (a 128-wide product split into two
  64-wide ones; a matrix unit fed zero is the plain sum; format changes are the identity), block by block and hence
  array by array, and the host operations between them are the reference's own.  No finiteness of the inputs is
  used: splitting and regrouping sums needs only that addition is commutative and associative.
  The three frames are the generated ones (the reference's is its run with the results dropped); the idealization
  rewrote nothing, so `preserves` is trivial.
-/
import proofs.«131021_j16913581211836_1_alg».proof.Defs
import proofs.«131021_j16913581211836_1_alg».proof.Proof.Gen.Kernel
import proofs.«131021_j16913581211836_1_alg».proof.Proof.Gen.Kernel.Skeleton
import proofs.«131021_j16913581211836_1_alg».proof.Proof.Gen.Kernel.Launch
import proofs.«131021_j16913581211836_1_alg».proof.Proof.Gen.Kernel.Points
import proofs.«131021_j16913581211836_1_alg».proof.Proof.Gen.Kernel.Frame
import proofs.«131021_j16913581211836_1_alg».proof.Proof.Gen.KernelIdeal
import proofs.«131021_j16913581211836_1_alg».proof.Proof.Gen.KernelIdeal.Skeleton
import proofs.«131021_j16913581211836_1_alg».proof.Proof.Gen.KernelIdeal.Launch
import proofs.«131021_j16913581211836_1_alg».proof.Proof.Gen.KernelIdeal.Points
import proofs.«131021_j16913581211836_1_alg».proof.Proof.Gen.KernelIdeal.Frame
import proofs.«131021_j16913581211836_1_alg».proof.Proof.Gen.ReferenceIdeal
import proofs.«131021_j16913581211836_1_alg».proof.Proof.Gen.ReferenceIdeal.Run
import proofs.«131021_j16913581211836_1_alg».proof.Proof.Gen.ReferenceIdeal.Read
import proofs.«131021_j16913581211836_1_alg».proof.Proof.Gen.Pre_finite_inputs
import proofs.«131021_j16913581211836_1_alg».proof.Proof.KRun
import proofs.«131021_j16913581211836_1_alg».proof.Proof.Chain
import proofs.«131021_j16913581211836_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the node read-out at `nodeOut` and the last edge state at `finalState` of the
    (agreeing) arguments. -/
theorem algebraic : Cert.algebraic_KernelIdeal_ReferenceIdeal := by
  intro m ρ m' ρ' _ hagree
  refine ⟨fun c => Cert.KernelIdeal.Glue.nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.KernelIdeal.Glue.finalState (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.out_eq m ρ c), (h c).2.1.trans (Cert.KernelIdeal.Chain.last_eq m ρ c), (h c).2.2⟩)
      (Cert.KernelIdeal.Whole.run_results (F := Ideal) m ρ)
  · refine (θ_run Cert.ReferenceIdeal.defs _ _).mono (fun r h c => ?_) (Cert.ReferenceIdeal.Value.run (F := Ideal) m' ρ')
    obtain ⟨e0, e1, e2, e3, e4, e5, e6, e7, e8, e9, e10⟩ := hagree c
    refine ⟨?_, ?_, (h c).2.2⟩
    · rw [(h c).1, Cert.ReferenceIdeal.Read.val_main_v133_eq, Cert.ReferenceIdeal.Bridge.ref_out, e0, e1, e2, e3, e4, e5, e6, e7, e8, e9, e10]
    · rw [(h c).2.1, Cert.ReferenceIdeal.Read.val_main_v124_eq, Cert.ReferenceIdeal.Bridge.ref_last, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
